-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096x4096 : Shape := ⟨2, ![4096, 4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x2048 .f32) (main_arg1 : FVec F S4096x2048 .f32) (main_arg2 : FVec F S4096x2048 .f32) (main_arg3 : FVec F S4096x4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x2048 : Shape := ⟨2, ![8192, 2048]⟩
abbrev S4096x2048 : Shape := ⟨2, ![4096, 2048]⟩
abbrev S4096x4096 : Shape := ⟨2, ![4096, 4096]⟩
abbrev S_ : Shape := ⟨0, ![]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S8192x4096 : Shape := ⟨2, ![8192, 4096]⟩
abbrev S256x2048 : Shape := ⟨2, ![256, 2048]⟩
abbrev S256x1 : Shape := ⟨2, ![256, 1]⟩
abbrev S256x4096 : Shape := ⟨2, ![256, 4096]⟩
abbrev S2048x4096 : Shape := ⟨2, ![2048, 4096]⟩

abbrev nBuf : Space → Nat
  | .hbm => 123
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .i1⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .i1⟩
  | .hbm, ⟨39, _⟩ => ⟨S4096x2048, .f32⟩
  | .hbm, ⟨40, _⟩ => ⟨S4096x2048, .f32⟩
  | .hbm, ⟨41, _⟩ => ⟨S4096x2048, .bf16⟩
  | .hbm, ⟨42, _⟩ => ⟨S4096x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S4096x2048, .f32⟩
  | .hbm, ⟨72, _⟩ => ⟨S4096x2048, .i1⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .i1⟩
  | .hbm, ⟨77, _⟩ => ⟨S4096x2048, .f32⟩
  | .hbm, ⟨78, _⟩ => ⟨S4096x2048, .f32⟩
  | .hbm, ⟨79, _⟩ => ⟨S4096x2048, .bf16⟩
  | .hbm, ⟨80, _⟩ => ⟨S4096x4096, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S4096x4096, .f32⟩
  | .hbm, ⟨102, _⟩ => ⟨S4096x4096, .f32⟩
  | .hbm, ⟨103, _⟩ => ⟨S_, .f32⟩
  | .hbm, ⟨104, _⟩ => ⟨S4096x4096, .f32⟩
  | .hbm, ⟨105, _⟩ => ⟨S4096x4096, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S4096x4096, .f32⟩
  | .hbm, ⟨110, _⟩ => ⟨S4096x4096, .i1⟩
  | .hbm, ⟨111, _⟩ => ⟨S4096x4096, .f32⟩
  | .hbm, ⟨112, _⟩ => ⟨S_, .f32⟩
  | .hbm, ⟨113, _⟩ => ⟨S4096x4096, .f32⟩
  | .hbm, ⟨114, _⟩ => ⟨S4096x4096, .i1⟩
  | .hbm, ⟨115, _⟩ => ⟨S4096x4096, .f32⟩
  | .hbm, ⟨116, _⟩ => ⟨S4096x4096, .f32⟩
  | .hbm, ⟨117, _⟩ => ⟨S4096x4096, .bf16⟩
  | .hbm, ⟨118, _⟩ => ⟨S8192x2048, .bf16⟩
  | .hbm, ⟨119, _⟩ => ⟨S8192x1, .f32⟩
  | .hbm, ⟨120, _⟩ => ⟨S8192x4096, .bf16⟩
  | .hbm, ⟨121, _⟩ => ⟨S8192x4096, .bf16⟩
  | .hbm, ⟨122, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S256x2048, .bf16⟩
  | .local _ .vmem, ⟨7, _⟩ => ⟨S256x2048, .bf16⟩
  | .local _ .vmem, ⟨8, _⟩ => ⟨S256x1, .f32⟩
  | .local _ .vmem, ⟨9, _⟩ => ⟨S256x1, .f32⟩
  | .local _ .vmem, ⟨10, _⟩ => ⟨S4096x2048, .bf16⟩
  | .local _ .vmem, ⟨11, _⟩ => ⟨S4096x2048, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S4096x4096, .bf16⟩
  | .local _ .vmem, ⟨21, _⟩ => ⟨S256x4096, .f32⟩
  | .local _ .vmem, ⟨22, _⟩ => ⟨S256x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_cst_3 : Ref sig .tc := ⟨.hbm, 13, rfl⟩
abbrev main_cst_4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_cst_6 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_7 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_8 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_9 : Ref sig .tc := ⟨.hbm, 43, rfl⟩
abbrev main_v21 : Ref sig .tc := ⟨.hbm, 44, rfl⟩
abbrev main_cst_10 : Ref sig .tc := ⟨.hbm, 45, rfl⟩
abbrev main_v22 : Ref sig .tc := ⟨.hbm, 46, rfl⟩
abbrev main_cst_11 : Ref sig .tc := ⟨.hbm, 47, rfl⟩
abbrev main_v23 : Ref sig .tc := ⟨.hbm, 48, rfl⟩
abbrev main_cst_12 : Ref sig .tc := ⟨.hbm, 49, rfl⟩
abbrev main_v24 : Ref sig .tc := ⟨.hbm, 50, rfl⟩
abbrev main_cst_13 : Ref sig .tc := ⟨.hbm, 51, rfl⟩
abbrev main_cst_14 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_15 : Ref sig .tc := ⟨.hbm, 60, rfl⟩
abbrev main_cst_16 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_17 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_18 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_19 : Ref sig .tc := ⟨.hbm, 81, rfl⟩
abbrev main_v41 : Ref sig .tc := ⟨.hbm, 82, rfl⟩
abbrev main_cst_20 : Ref sig .tc := ⟨.hbm, 83, rfl⟩
abbrev main_v42 : Ref sig .tc := ⟨.hbm, 84, rfl⟩
abbrev main_cst_21 : Ref sig .tc := ⟨.hbm, 85, rfl⟩
abbrev main_v43 : Ref sig .tc := ⟨.hbm, 86, rfl⟩
abbrev main_cst_22 : Ref sig .tc := ⟨.hbm, 87, rfl⟩
abbrev main_v44 : Ref sig .tc := ⟨.hbm, 88, rfl⟩
abbrev main_cst_23 : Ref sig .tc := ⟨.hbm, 89, rfl⟩
abbrev main_cst_24 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_25 : Ref sig .tc := ⟨.hbm, 98, rfl⟩
abbrev main_cst_26 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_27 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_28 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60_0 : Ref sig .tc := ⟨.hbm, 118, rfl⟩
abbrev main_v60_1 : Ref sig .tc := ⟨.hbm, 119, rfl⟩
abbrev main_v61_0 : Ref sig .tc := ⟨.hbm, 120, rfl⟩
abbrev main_v61_1 : Ref sig .tc := ⟨.hbm, 121, rfl⟩
abbrev main_v62 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S4096x2048_S_d0_1 : S4096x2048.ReducesTo [0, 1] S_
  h_S_ : 0 < S_.numel
  bcast_S_S4096x2048 : S_.BroadcastsInDim S4096x2048 (![] : Fin 0 → Fin S4096x2048.rank)
  bitsLt_bf16_f32 : FTy.bits .bf16 < FTy.bits .f32
  reducesTo_S4096x4096_S_d0_1 : S4096x4096.ReducesTo [0, 1] S_
  bcast_S_S4096x4096 : S_.BroadcastsInDim S4096x4096 (![] : Fin 0 → Fin S4096x4096.rank)
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  broadcasts_S1024x1_S1024x2048 : S1024x1.Broadcasts S1024x2048
  packedbf16_S1024x2048_S1024x2048_0_0 : (Rect.unit (s := S1024x2048) ![0, 0] S1024x2048.size inb_S1024x2048_S1024x2048_0_0).PackedRows (EltTy.packing .bf16)
  inb_S1024x1_S1024x1_0_0 : ∀ a, (![0, 0] : Fin 2 → Nat) a + S1024x1.size a ≤ S1024x1.size a
  h_S1024x1 : 0 < S1024x1.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  transposes_S4096x2048_p1_0_S2048x4096 : S4096x2048.Transposes [1, 0] S2048x4096
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  transposes_S4096x4096_p1_0_S4096x4096 : S4096x4096.Transposes [1, 0] S4096x4096
  dot_S256x2048_S2048x4096_S256x4096_1_0_0_1_n_n_wf : DotDims.WF S256x2048 S2048x4096 S256x4096 [1] [0] [0] [1] [] []
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .bf16 = 32 ∨ (Rect.block (s := S8192x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S8192x1.size a
  hwx1_1 : ∀ i : grid1.Coords, EltTy.bits .f32 = 32 ∨ (Rect.block (s := S8192x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2048.size a ≤ S4096x2048.size a
  hwx1_2 : ∀ i : grid1.Coords, EltTy.bits .bf16 = 32 ∨ (Rect.block (s := S4096x2048) S4096x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x2048.size a ≤ S4096x2048.size a
  hwx1_3 : ∀ i : grid1.Coords, EltTy.bits .bf16 = 32 ∨ (Rect.block (s := S4096x2048) S4096x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S8192x4096.size a
  hwx1_4 : ∀ i : grid1.Coords, EltTy.bits .bf16 = 32 ∨ (Rect.block (s := S8192x4096) S256x4096.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .bf16 = 32 ∨ (Rect.block (s := S8192x4096) S256x4096.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S8192x4096.size a
  hwx2_1 : ∀ i : grid2.Coords, EltTy.bits .bf16 = 32 ∨ (Rect.block (s := S8192x4096) S256x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x4096.size a ≤ S4096x4096.size a
  hwx2_2 : ∀ i : grid2.Coords, EltTy.bits .bf16 = 32 ∨ (Rect.block (s := S4096x4096) S4096x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S8192x4096.size a
  hwx2_3 : ∀ i : grid2.Coords, EltTy.bits .f32 = 32 ∨ (Rect.block (s := S8192x4096) S256x4096.size (cc2_transform_3 i) (hinb2_3 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60_0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60_1) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4096x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S4096x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61_0) S256x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v61_1) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61_0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61_1) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4096x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S2048x4096 : Shape := ⟨2, ![2048, 4096]⟩
abbrev S8192x4096 : Shape := ⟨2, ![8192, 4096]⟩

abbrev nBuf : Space → Nat
  | .hbm => 205
  | .vmem => 0
  | .smem => 0
  | _ => 0

abbrev hbmTy0_0 (i : Nat) : BufTy := match i % 128 with
  | 0 => ⟨S8192x2048, .f32⟩
  | 1 => ⟨S4096x2048, .f32⟩
  | 2 => ⟨S4096x2048, .f32⟩
  | 3 => ⟨S4096x4096, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S8192x2048, .f32⟩
  | 11 => ⟨S8192x2048, .f32⟩
  | 12 => ⟨S8192x2048, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x2048, .f32⟩
  | 30 => ⟨S8192x2048, .f32⟩
  | 31 => ⟨S8192x2048, .f32⟩
  | 32 => ⟨S8192x2048, .f32⟩
  | 33 => ⟨S8192x2048, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S_, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x2048, .f32⟩
  | 52 => ⟨S8192x2048, .f32⟩
  | 53 => ⟨S8192x2048, .f32⟩
  | 54 => ⟨S_, .f32⟩
  | 55 => ⟨S_, .f32⟩
  | 56 => ⟨S_, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S8192x2048, .f32⟩
  | 63 => ⟨S8192x2048, .f32⟩
  | 64 => ⟨S4096x2048, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S4096x2048, .f32⟩
  | 80 => ⟨S4096x2048, .f32⟩
  | 81 => ⟨S4096x2048, .f32⟩
  | 82 => ⟨S_, .f32⟩
  | 83 => ⟨S_, .f32⟩
  | 84 => ⟨S_, .f32⟩
  | 85 => ⟨S4096x2048, .f32⟩
  | 86 => ⟨S4096x2048, .f32⟩
  | 87 => ⟨S_, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S4096x2048, .f32⟩
  | 108 => ⟨S4096x2048, .f32⟩
  | 109 => ⟨S4096x2048, .f32⟩
  | 110 => ⟨S_, .f32⟩
  | 111 => ⟨S_, .f32⟩
  | 112 => ⟨S_, .f32⟩
  | 113 => ⟨S4096x2048, .f32⟩
  | 114 => ⟨S4096x2048, .f32⟩
  | 115 => ⟨S_, .f32⟩
  | 116 => ⟨S4096x2048, .f32⟩
  | 117 => ⟨S4096x2048, .f32⟩
  | 118 => ⟨S4096x2048, .f32⟩
  | 119 => ⟨S4096x2048, .f32⟩
  | 120 => ⟨S4096x4096, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S4096x4096, .f32⟩
  | 8 => ⟨S4096x4096, .f32⟩
  | 9 => ⟨S4096x4096, .f32⟩
  | 10 => ⟨S_, .f32⟩
  | 11 => ⟨S_, .f32⟩
  | 12 => ⟨S_, .f32⟩
  | 13 => ⟨S4096x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S4096x4096, .f32⟩
  | 20 => ⟨S_, .f32⟩
  | 21 => ⟨S4096x2048, .f32⟩
  | 22 => ⟨S4096x2048, .i1⟩
  | 23 => ⟨S4096x2048, .f32⟩
  | 24 => ⟨S_, .f32⟩
  | 25 => ⟨S4096x2048, .f32⟩
  | 26 => ⟨S4096x2048, .i1⟩
  | 27 => ⟨S4096x2048, .f32⟩
  | 28 => ⟨S2048x4096, .f32⟩
  | 29 => ⟨S8192x4096, .f32⟩
  | 30 => ⟨S2048x4096, .f32⟩
  | 31 => ⟨S8192x4096, .f32⟩
  | 32 => ⟨S8192x4096, .f32⟩
  | 33 => ⟨S_, .f32⟩
  | 34 => ⟨S4096x2048, .f32⟩
  | 35 => ⟨S4096x2048, .i1⟩
  | 36 => ⟨S4096x2048, .f32⟩
  | 37 => ⟨S_, .f32⟩
  | 38 => ⟨S4096x2048, .f32⟩
  | 39 => ⟨S4096x2048, .i1⟩
  | 40 => ⟨S4096x2048, .f32⟩
  | 41 => ⟨S2048x4096, .f32⟩
  | 42 => ⟨S8192x4096, .f32⟩
  | 43 => ⟨S2048x4096, .f32⟩
  | 44 => ⟨S8192x4096, .f32⟩
  | 45 => ⟨S8192x4096, .f32⟩
  | 46 => ⟨S_, .f32⟩
  | 47 => ⟨S4096x4096, .f32⟩
  | 48 => ⟨S4096x4096, .i1⟩
  | 49 => ⟨S4096x4096, .f32⟩
  | 50 => ⟨S_, .f32⟩
  | 51 => ⟨S4096x4096, .f32⟩
  | 52 => ⟨S4096x4096, .i1⟩
  | 53 => ⟨S4096x4096, .f32⟩
  | 54 => ⟨S4096x4096, .f32⟩
  | 55 => ⟨S8192x4096, .f32⟩
  | 56 => ⟨S4096x4096, .f32⟩
  | 57 => ⟨S8192x4096, .f32⟩
  | 58 => ⟨S8192x4096, .f32⟩
  | 59 => ⟨S8192x4096, .f32⟩
  | 60 => ⟨S8192x4096, .f32⟩
  | 61 => ⟨S_, .f32⟩
  | 62 => ⟨S8192x4096, .f32⟩
  | 63 => ⟨S8192x4096, .f32⟩
  | 64 => ⟨S_, .f32⟩
  | 65 => ⟨S8192x4096, .f32⟩
  | 66 => ⟨S8192x4096, .f32⟩
  | 67 => ⟨S8192x4096, .f32⟩
  | 68 => ⟨S8192x4096, .f32⟩
  | 69 => ⟨S8192x4096, .f32⟩
  | 70 => ⟨S_, .f32⟩
  | 71 => ⟨S8192x4096, .f32⟩
  | 72 => ⟨S8192x4096, .f32⟩
  | 73 => ⟨S_, .f32⟩
  | 74 => ⟨S8192x4096, .f32⟩
  | 75 => ⟨S8192x4096, .f32⟩
  | 76 => ⟨S8192x4096, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_cst_10 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_cst_12 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_cst_14 : Ref sig .tc := ⟨.hbm, 67, rfl⟩
abbrev main_v38 : Ref sig .tc := ⟨.hbm, 68, rfl⟩
abbrev main_cst_15 : Ref sig .tc := ⟨.hbm, 69, rfl⟩
abbrev main_v39 : Ref sig .tc := ⟨.hbm, 70, rfl⟩
abbrev main_cst_16 : Ref sig .tc := ⟨.hbm, 71, rfl⟩
abbrev main_v40 : Ref sig .tc := ⟨.hbm, 72, rfl⟩
abbrev main_cst_17 : Ref sig .tc := ⟨.hbm, 73, rfl⟩
abbrev main_cst_18 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_19 : Ref sig .tc := ⟨.hbm, 82, rfl⟩
abbrev main_cst_20 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_21 : Ref sig .tc := ⟨.hbm, 93, rfl⟩
abbrev main_v49 : Ref sig .tc := ⟨.hbm, 94, rfl⟩
abbrev main_cst_22 : Ref sig .tc := ⟨.hbm, 95, rfl⟩
abbrev main_v50 : Ref sig .tc := ⟨.hbm, 96, rfl⟩
abbrev main_cst_23 : Ref sig .tc := ⟨.hbm, 97, rfl⟩
abbrev main_v51 : Ref sig .tc := ⟨.hbm, 98, rfl⟩
abbrev main_cst_24 : Ref sig .tc := ⟨.hbm, 99, rfl⟩
abbrev main_v52 : Ref sig .tc := ⟨.hbm, 100, rfl⟩
abbrev main_cst_25 : Ref sig .tc := ⟨.hbm, 101, rfl⟩
abbrev main_cst_26 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_27 : Ref sig .tc := ⟨.hbm, 110, rfl⟩
abbrev main_cst_28 : Ref sig .tc := ⟨.hbm, 111, rfl⟩
abbrev main_call8_v0 : Ref sig .tc := ⟨.hbm, 112, rfl⟩
abbrev main_call8_v1 : Ref sig .tc := ⟨.hbm, 113, rfl⟩
abbrev main_call8_v2 : Ref sig .tc := ⟨.hbm, 114, rfl⟩
abbrev main_call8_v3 : Ref sig .tc := ⟨.hbm, 115, rfl⟩
abbrev main_call8_v4 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_29 : Ref sig .tc := ⟨.hbm, 121, rfl⟩
abbrev main_v61 : Ref sig .tc := ⟨.hbm, 122, rfl⟩
abbrev main_cst_30 : Ref sig .tc := ⟨.hbm, 123, rfl⟩
abbrev main_v62 : Ref sig .tc := ⟨.hbm, 124, rfl⟩
abbrev main_cst_31 : Ref sig .tc := ⟨.hbm, 125, rfl⟩
abbrev main_v63 : Ref sig .tc := ⟨.hbm, 126, rfl⟩
abbrev main_cst_32 : Ref sig .tc := ⟨.hbm, 127, rfl⟩
abbrev main_v64 : Ref sig .tc := ⟨.hbm, 128, rfl⟩
abbrev main_cst_33 : Ref sig .tc := ⟨.hbm, 129, rfl⟩
abbrev main_cst_34 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_cst_35 : Ref sig .tc := ⟨.hbm, 138, rfl⟩
abbrev main_cst_36 : Ref sig .tc := ⟨.hbm, 139, rfl⟩
abbrev main_call11_v0 : Ref sig .tc := ⟨.hbm, 140, rfl⟩
abbrev main_call11_v1 : Ref sig .tc := ⟨.hbm, 141, rfl⟩
abbrev main_call11_v2 : Ref sig .tc := ⟨.hbm, 142, rfl⟩
abbrev main_call11_v3 : Ref sig .tc := ⟨.hbm, 143, rfl⟩
abbrev main_call11_v4 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_37 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_38 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_cst_39 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_cst_40 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_cst_41 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_cst_42 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_cst_43 : Ref sig .tc := ⟨.hbm, 189, rfl⟩
abbrev main_v107 : Ref sig .tc := ⟨.hbm, 190, rfl⟩
abbrev main_v108 : Ref sig .tc := ⟨.hbm, 191, rfl⟩
abbrev main_cst_44 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_cst_45 : Ref sig .tc := ⟨.hbm, 198, rfl⟩
abbrev main_v114 : Ref sig .tc := ⟨.hbm, 199, rfl⟩
abbrev main_v115 : Ref sig .tc := ⟨.hbm, 200, rfl⟩
abbrev main_cst_46 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  reducesTo_S4096x2048_S_d0_1 : S4096x2048.ReducesTo [0, 1] S_
  bcast_S_S4096x2048 : S_.BroadcastsInDim S4096x2048 (![] : Fin 0 → Fin S4096x2048.rank)
  reducesTo_S4096x4096_S_d0_1 : S4096x4096.ReducesTo [0, 1] S_
  bcast_S_S4096x4096 : S_.BroadcastsInDim S4096x4096 (![] : Fin 0 → Fin S4096x4096.rank)
  transposes_S4096x2048_S2048x4096_1_0 : S4096x2048.Transposes [1, 0] S2048x4096
  transposes_S4096x4096_S4096x4096_1_0 : S4096x4096.Transposes [1, 0] S4096x4096
  bcast_S_S8192x4096 : S_.BroadcastsInDim S8192x4096 (![] : Fin 0 → Fin S8192x4096.rank)
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KRun.lean ====
/-
  The kernel program's run with its result named: every weakly fair execution of the three-region program terminates,
  nothing faulting, with the result array at the contents the last region's write-backs leave (the fold of the host
  operations and the three regions from the launch memory, read at the result buffer) and the four argument arrays
  as launched.
-/
import proofs.«105572_j21706764714142_2_alg».proof.Proof.Gen.KernelIdeal.Frame

set_option maxRecDepth 16384

noncomputable section

namespace Cert.Glu.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run : θ_run defs (onTc (τ := τ) (main (F := F))) ⟨m, fun _ => 0, ρ⟩ (fun r => ∀ c : Dev nD,
      r.2.mem ((c.tc : Thread nD τ).loc main_v62) = W22 m ρ c (Proc.devRef .tc main_v62)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v62 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c)⟩)

end Cert.Glu.KRun

end
-- ==== Proof.LibRowAbsMax.lean ====
/-
  The largest magnitude of each row of an R×K array, on the extended reals, as both kinds of program compute it.

  For a row x of K entries, rowAbsMax x = max over k of |x_k|, the maximum taken from -∞ (the f32 pattern 0xFF800000), with
  |x| = max(x, -x). At row p of an R×K array X:
    * the vector unit's lane maximum of |X| over the second axis, from the accumulator pattern -∞, is rowAbsMax of row p;
    * the host's reduce with a maximum body over the second axis, from a scalar -∞, is the same.
  Both rest on one index fact: the index over row p with coordinate k inserted on the reduced axis is (p, k).
-/
import Idealize.ShloMosaic.PureOps.Ideal.Laws
import Idealize.ShloMosaic.Lib.ValueIdx

noncomputable section

namespace Idealize.ShloMosaic.RowAbsMax

open Idealize.ShloMosaic Idealize.ShloMosaic.ValueIdx

/-- The largest magnitude of a row, the maximum taken from -∞ (the pattern 0xFF800000). -/
def rowAbsMax {K : ℕ} (xr : Fin K → EReal) : EReal :=
  (Finset.univ : Finset (Fin K)).fold max (Ideal.ofBits .f32 0xFF800000#32) (fun k => max (xr k) (-(xr k)))

/-- The index over row p of an R×K array with coordinate k inserted on the reduced second axis is (p, k). -/
theorem lift_row {R K : ℕ} (h : Shape.Reduces ⟨2, ![R, K]⟩ [1] ⟨1, ![R]⟩) (p : Fin R) (k : Fin K) :
    h.lift (ix1 p) k = ix2 p k := by
  funext a
  apply Fin.ext
  match a with
  | ⟨0, _⟩ => rfl
  | ⟨1, _⟩ => rfl

/-- The vector unit's row maximum of the magnitudes, from -∞, at row p: the row's largest magnitude. -/
theorem rowmax_vector {R K : ℕ} (X : FVec Ideal ⟨2, ![R, K]⟩ .f32) (h : Shape.Reduces ⟨2, ![R, K]⟩ [1] ⟨1, ![R]⟩)
    (hφ : FKind.Formats .f32) (hacc : (0xFF800000#32 : BitVec 32) = FKind.maximumf.neutral .f32 hφ) (p : Fin R) :
    multiReduction .maximumf [1] ⟨1, ![R]⟩ (absf X) 0xFF800000#32 h hφ hacc (ix1 p) = rowAbsMax (fun k => X (ix2 p k)) := by
  refine (Ideal.multiReduction_maximumf_single (absf X) 0xFF800000#32 h hφ hacc (ix1 p)).trans ?_
  have e : (absf X ∘ h.lift (ix1 p)) = fun k : Fin K => max (X (ix2 p k)) (-(X (ix2 p k))) :=
    funext fun k => by
      show absf X (h.lift (ix1 p) k) = _
      rw [lift_row h p k]
      rfl
  rw [e]
  rfl

/-- The host's reduce with a maximum body over the second axis, from a scalar -∞, at row p: the same. -/
theorem rowmax_host {R K : ℕ} (X : FVec Ideal ⟨2, ![R, K]⟩ .f32) (h' : Shape.ReducesTo ⟨2, ![R, K]⟩ [1] ⟨1, ![R]⟩)
    (h : Shape.Reduces ⟨2, ![R, K]⟩ [1] ⟨1, ![R]⟩) (hu : 0 < (⟨0, ![]⟩ : Shape).numel) (p : Fin R) :
    Host.reduce FloatOps.maximumf (Host.absf X) (constant (F := Ideal) ⟨0, ![]⟩ .f32 0xFF800000#32) h' hu (ix1 p)
      = rowAbsMax (fun k => X (ix2 p k)) := by
  refine (Host.reduce_eq_fold_single FloatOps.maximumf (Host.absf X) (constant (F := Ideal) ⟨0, ![]⟩ .f32 0xFF800000#32) h' h hu (ix1 p)).trans ?_
  have e : (Host.absf X ∘ h.lift (ix1 p)) = fun k : Fin K => max (X (ix2 p k)) (-(X (ix2 p k))) :=
    funext fun k => by
      show Host.absf X (h.lift (ix1 p) k) = _
      rw [lift_row h p k]
      rfl
  rw [e]
  rfl

end Idealize.ShloMosaic.RowAbsMax

end
-- ==== Proof.Spec.lean ====
/-
  The mathematics both programs compute, written once over plain index types (rows, columns), on the extended reals.

  One row x of 2048 entries is centred (x - mean), scaled by r = min(1/sqrt(var + eps), 1000) to xn, and quantised:
  s = min(1000, max(0.001, 127 / (max_k |xn_k| + eps))), q_k = min(127, max(-128, roundeven(s * xn_k))).
  q_k lies in [-128, 127] and s in [0.001, 1000] whatever the row holds, so both are real numbers.

  The kernel keeps q and 1/s and forms   g = (sum_k q_k * (P_k - N_k)) * (1/s);
  the reference forms x_q = q / s and    g = sum_k x_q_k * P_k - sum_k x_q_k * N_k,
  with P, N the 0/1 masks of the quantised weights. For real q, s > 0 and real P, N the two agree (distributivity over
  finite sums of reals). The second projection d = sum_h g_h * (P_h - N_h) against sum_h g_h P_h - sum_h g_h N_h is the
  same law once g is real. The logistic gate is 1 / (1 + exp(-y)) on both sides.
-/
import Idealize.ShloMosaic.PureOps.Ideal.Laws
import Idealize.ShloMosaic.Lib.ValueIdx
import Idealize.ShloMosaic.Lib.IdealHost
import proofs.«105572_j21706764714142_2_alg».proof.Proof.LibRowAbsMax

noncomputable section

open scoped BigOperators

namespace Cert.Glu

open Idealize.ShloMosaic

/-- The extended real an f32 pattern denotes. -/
abbrev lit (w : BitVec 32) : EReal := Ideal.ofBits .f32 w

/-! ## One row: centring, scaling, quantising -/

section Row

variable (x : Fin 2048 → EReal)

/-- The row's mean: its sum over 2048. -/
def mean : EReal := Ideal.div (∑ k, x k) (lit 0x45000000#32)

/-- The row centred. -/
def cen (k : Fin 2048) : EReal := x k - mean x

/-- The centred row's mean square. -/
def var : EReal := Ideal.div (∑ k, cen x k * cen x k) (lit 0x45000000#32)

/-- min(1 / sqrt(var + eps), 1000). -/
def rinv : EReal :=
  min (Ideal.div (lit 0x3F800000#32) (Ideal.sqrt (var x + lit 0x322BCC77#32))) (lit 0x447A0000#32)

/-- The normalised row. -/
def xn (k : Fin 2048) : EReal := rinv x * cen x k

/-- The row's quantisation scale min(1000, max(0.001, 127 / (max |xn| + eps))). -/
def scale : EReal :=
  min (lit 0x447A0000#32) (max (lit 0x3A83126F#32)
    (Ideal.div (lit 0x42FE0000#32) (RowAbsMax.rowAbsMax (xn x) + lit 0x322BCC77#32)))

/-- The quantised level min(127, max(-128, roundeven(scale * xn))). -/
def qv (k : Fin 2048) : EReal :=
  min (lit 0x42FE0000#32) (max (lit 0xC3000000#32) (Ideal.liftRound Ideal.roundHalfEven (scale x * xn x k)))

/-- 1 / scale. -/
def invs : EReal := Ideal.div (lit 0x3F800000#32) (scale x)

end Row

/-! ## The kernel's arrangement -/

/-- (sum_k q_k * w_k) * (1/s) for one row and one weight row. -/
def gRow (x w : Fin 2048 → EReal) : EReal := (∑ k, qv x k * w k) * invs x

/-- The gate projection at (n, h). -/
def G (x : Fin 8192 → Fin 2048 → EReal) (wg : Fin 4096 → Fin 2048 → EReal) (n : Fin 8192) (h : Fin 4096) : EReal :=
  gRow (x n) (wg h)

/-- logistic(g) * u at (n, h). -/
def Pm (x : Fin 8192 → Fin 2048 → EReal) (wg wu : Fin 4096 → Fin 2048 → EReal) (n : Fin 8192) (h : Fin 4096) : EReal :=
  Ideal.logistic (G x wg n h) * gRow (x n) (wu h)

/-- The kernel's result at (n, j): logistic(sum_h g(n,h) * wd(j,h)) * p(n,j). -/
def Out (x : Fin 8192 → Fin 2048 → EReal) (wg wu : Fin 4096 → Fin 2048 → EReal) (wd : Fin 4096 → Fin 4096 → EReal)
    (n : Fin 8192) (j : Fin 4096) : EReal :=
  Ideal.logistic (∑ h, G x wg n h * wd j h) * Pm x wg wu n j

/-! ## The reference's arrangement -/

/-- sum_k a_k P_k - sum_k a_k N_k. -/
def lin {K : ℕ} (a P N : Fin K → EReal) : EReal := (∑ k, a k * P k) - (∑ k, a k * N k)

/-- The de-quantised row q / s. -/
def xq (x : Fin 2048 → EReal) (k : Fin 2048) : EReal := Ideal.div (qv x k) (scale x)

/-- The reference's spelling of the logistic gate. -/
def sigr (y : EReal) : EReal := Ideal.div (lit 0x3F800000#32) (lit 0x3F800000#32 + Ideal.exp (-y))

def Gr (x : Fin 8192 → Fin 2048 → EReal) (Pg Ng : Fin 4096 → Fin 2048 → EReal) (n : Fin 8192) (h : Fin 4096) : EReal :=
  lin (xq (x n)) (Pg h) (Ng h)

/-- The reference's result at (n, j). -/
def ROut (x : Fin 8192 → Fin 2048 → EReal) (Pg Ng Pu Nu : Fin 4096 → Fin 2048 → EReal) (Pd Nd : Fin 4096 → Fin 4096 → EReal)
    (n : Fin 8192) (j : Fin 4096) : EReal :=
  sigr (lin (Gr x Pg Ng n) (Pd j) (Nd j)) * (sigr (Gr x Pg Ng n j) * Gr x Pu Nu n j)

end Cert.Glu

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.Body0.lean ====
/-
  Region 0 read at an index: one row of the loaded block is centred, scaled by min(1/sqrt(var + eps), 1000) and quantised.

  For a block xb of 1024 rows of 2048 entries, with x the row r:
    * the first output at (r, c) is the quantised level qv x c;
    * the second output at (r, 0) is the reciprocal scale invs x.
-/
import proofs.«105572_j21706764714142_2_alg».proof.Proof.Gen.KernelIdeal.Frame
import proofs.«105572_j21706764714142_2_alg».proof.Proof.Spec
import proofs.«105572_j21706764714142_2_alg».proof.Proof.LibKeepdims
import proofs.«105572_j21706764714142_2_alg».proof.Proof.LibAxisFold
import proofs.«105572_j21706764714142_2_alg».proof.Proof.LibRowAbsMax
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.Glu.Body0

open Cert.KernelIdeal Cert.KernelIdeal.Gen

/-- The two zero offsets, as the constant-zero function. -/
theorem offsets_zero : (![0, 0] : Fin 2 → Nat) = fun _ => 0 := funext fun a => by fin_cases a <;> rfl

/-- The first output's buffer after the body is the quantising payload of the loaded block. -/
theorem out0_1_eq (xb : Vec Ideal S1024x2048 .f32) : out0_1 (F := Ideal) xb = k0_pay4 xb := by
  unfold out0_1
  rw [View.canon_unit_zero offsets_zero]
  simp only [View.ld_unit_zero (S := S1024x2048) offsets_zero]

/-- The second output's buffer after the body is the reciprocal of the scale payload of the loaded block. -/
theorem out0_2_eq (xb : Vec Ideal S1024x2048 .f32) : out0_2 (F := Ideal) xb = k0_pay1 (k0_pay3 xb) := by
  unfold out0_2
  rw [View.canon_unit_zero offsets_zero]
  simp only [View.ld_unit_zero (S := S1024x2048) offsets_zero]

/-- A row sum kept as a column, at (r, 0): the sum of the row. -/
theorem rowsum_col (X : FVec Ideal S1024x2048 .f32) (h : Shape.Reduces S1024x2048 [1] S1024)
    (hφ : FKind.Formats .f32) (hacc : (0x00000000#32 : BitVec 32) = FKind.add.neutral .f32 hφ)
    (hc : S1024.ShapeCasts S1024x1) (r : Fin 1024) (u : Fin 1) :
    shapeCast S1024x1 (multiReduction .add [1] S1024 X 0x00000000#32 h hφ hacc) hc (ix2 r u) = ∑ k : Fin 2048, X (ix2 r k) :=
  (Keepdims.shapeCast_a_a1_apply _ hc r u).trans (AxisFold.sum_second_apply X h hφ hacc r)

/-- Rounding to nearest even, entry by entry. -/
theorem roundeven_at {s : Shape} (a : FVec Ideal s .f32) (i : s.Idx) :
    roundeven a i = Ideal.liftRound Ideal.roundHalfEven (a i) := rfl

/-- The square root, entry by entry. -/
theorem sqrt_at {s : Shape} (a : FVec Ideal s .f32) (i : s.Idx) : sqrt a i = Ideal.sqrt (a i) := rfl

/-! ## The kernel's columns and blocks, named -/

/-- The column of row means: each row's sum over 2048. -/
def meanC (xb : Vec Ideal S1024x2048 .f32) : FVec Ideal S1024x1 .f32 :=
  divf (shapeCast S1024x1 (multiReduction .add [1] S1024 xb 0x00000000#32 reduces_S1024x2048_S1024 (.inl rfl) rfl) shapeCasts_S1024_S1024x1)
    (broadcast S1024x1 (Scalar.ofBits .f32 0x45000000#32))

/-- The block centred row by row. -/
def cenB (xb : Vec Ideal S1024x2048 .f32) : FVec Ideal S1024x2048 .f32 :=
  subf xb (broadcastTo S1024x2048 (meanC xb) broadcasts_S1024x1_S1024x2048)

/-- The column of mean squares of the centred rows. -/
def varC (xb : Vec Ideal S1024x2048 .f32) : FVec Ideal S1024x1 .f32 :=
  divf (shapeCast S1024x1 (multiReduction .add [1] S1024 (mulf (cenB xb) (cenB xb)) 0x00000000#32 reduces_S1024x2048_S1024 (.inl rfl) rfl) shapeCasts_S1024_S1024x1)
    (broadcast S1024x1 (Scalar.ofBits .f32 0x45000000#32))

/-- The column min(1 / sqrt(var + eps), 1000). -/
def rinvC (xb : Vec Ideal S1024x2048 .f32) : FVec Ideal S1024x1 .f32 :=
  minimumf (divf (broadcast S1024x1 (Scalar.ofBits .f32 0x3F800000#32))
      (sqrt (addf (varC xb) (broadcast S1024x1 (Scalar.ofBits .f32 0x322BCC77#32)))))
    (broadcast S1024x1 (Scalar.ofBits .f32 0x447A0000#32))

/-- The normalising payload is the scaled centred block. -/
theorem pay2_eq (xb : Vec Ideal S1024x2048 .f32) :
    k0_pay2 xb = mulf (broadcastTo S1024x2048 (rinvC xb) broadcasts_S1024x1_S1024x2048) (cenB xb) := rfl

/-- The mean column at (r, u) is the mean of row r. -/
theorem meanC_at (xb : Vec Ideal S1024x2048 .f32) (r : Fin 1024) (u : Fin 1) :
    meanC xb (ix2 r u) = Cert.Glu.mean (fun k => xb (ix2 r k)) := by
  unfold meanC Cert.Glu.mean
  refine (divf_apply _ _ _).trans ?_
  exact congrArg (fun s => Ideal.div s (lit 0x45000000#32)) (rowsum_col xb _ _ _ _ r u)

/-- The centred block at (r, c) is the centred row r at c. -/
theorem cenB_at (xb : Vec Ideal S1024x2048 .f32) (r : Fin 1024) (c : Fin 2048) :
    cenB xb (ix2 r c) = Cert.Glu.cen (fun k => xb (ix2 r k)) c := by
  unfold cenB Cert.Glu.cen
  refine (subf_apply _ _ _).trans ?_
  exact congrArg (fun s => xb (ix2 r c) - s)
    ((Keepdims.broadcastTo_a1_ab_apply _ _ r c).trans (meanC_at xb r 0))

/-- The mean-square column at (r, u) is the mean square of the centred row r. -/
theorem varC_at (xb : Vec Ideal S1024x2048 .f32) (r : Fin 1024) (u : Fin 1) :
    varC xb (ix2 r u) = Cert.Glu.var (fun k => xb (ix2 r k)) := by
  unfold varC Cert.Glu.var
  refine (divf_apply _ _ _).trans ?_
  refine congrArg (fun s => Ideal.div s (lit 0x45000000#32)) ?_
  refine (rowsum_col _ _ _ _ _ r u).trans ?_
  refine Finset.sum_congr rfl fun k _ => ?_
  refine (mulf_apply _ _ _).trans ?_
  rw [cenB_at xb r k]

/-- The scaling column at (r, u) is min(1 / sqrt(var + eps), 1000) of row r. -/
theorem rinvC_at (xb : Vec Ideal S1024x2048 .f32) (r : Fin 1024) (u : Fin 1) :
    rinvC xb (ix2 r u) = Cert.Glu.rinv (fun k => xb (ix2 r k)) := by
  unfold rinvC Cert.Glu.rinv
  refine (minimumf_apply _ _ _).trans ?_
  refine congrArg (fun s => min s (lit 0x447A0000#32)) ?_
  refine (divf_apply _ _ _).trans ?_
  refine congrArg (fun s => Ideal.div (lit 0x3F800000#32) s) ?_
  refine (sqrt_at _ _).trans ?_
  refine congrArg Ideal.sqrt ?_
  refine (addf_apply _ _ _).trans ?_
  exact congrArg (fun s => s + lit 0x322BCC77#32) (varC_at xb r u)

/-- The normalising payload at (r, c) is the normalised row r at c. -/
theorem pay2_at (xb : Vec Ideal S1024x2048 .f32) (r : Fin 1024) (c : Fin 2048) :
    k0_pay2 xb (ix2 r c) = Cert.Glu.xn (fun k => xb (ix2 r k)) c := by
  rw [pay2_eq]
  unfold Cert.Glu.xn
  refine (mulf_apply _ _ _).trans ?_
  rw [cenB_at xb r c, Keepdims.broadcastTo_a1_ab_apply _ _ r c, rinvC_at xb r 0]

/-- The scale payload at (r, u) is the quantisation scale of row r. -/
theorem pay3_at (xb : Vec Ideal S1024x2048 .f32) (r : Fin 1024) (u : Fin 1) :
    k0_pay3 xb (ix2 r u) = Cert.Glu.scale (fun k => xb (ix2 r k)) := by
  unfold k0_pay3 Cert.Glu.scale
  refine (minimumf_apply _ _ _).trans ?_
  refine congrArg (fun s => min (lit 0x447A0000#32) s) ?_
  refine (maximumf_apply _ _ _).trans ?_
  refine congrArg (fun s => max (lit 0x3A83126F#32) s) ?_
  refine (divf_apply _ _ _).trans ?_
  refine congrArg (fun s => Ideal.div (lit 0x42FE0000#32) s) ?_
  refine (addf_apply _ _ _).trans ?_
  refine congrArg (fun s => s + lit 0x322BCC77#32) ?_
  refine (Keepdims.shapeCast_a_a1_apply _ _ r u).trans ?_
  refine (RowAbsMax.rowmax_vector (k0_pay2 xb) _ _ _ r).trans ?_
  exact congrArg RowAbsMax.rowAbsMax (funext fun k => pay2_at xb r k)

/-- The quantising payload at (r, c) is the quantised level of row r at c. -/
theorem pay4_at (xb : Vec Ideal S1024x2048 .f32) (r : Fin 1024) (c : Fin 2048) :
    k0_pay4 xb (ix2 r c) = Cert.Glu.qv (fun k => xb (ix2 r k)) c := by
  unfold k0_pay4 Cert.Glu.qv
  refine (truncf_apply (ψ := .bf16) _ bitsLt_bf16_f32 (ix2 r c)).trans ?_
  refine (minimumf_apply _ _ _).trans ?_
  refine congrArg (fun s => min (lit 0x42FE0000#32) s) ?_
  refine (maximumf_apply _ _ _).trans ?_
  refine congrArg (fun s => max (lit 0xC3000000#32) s) ?_
  refine (roundeven_at _ _).trans ?_
  refine congrArg (Ideal.liftRound Ideal.roundHalfEven) ?_
  refine (mulf_apply _ _ _).trans ?_
  rw [Keepdims.broadcastTo_a1_ab_apply _ _ r c, pay3_at xb r 0, pay2_at xb r c]

/-- The reciprocal of the scale payload at (r, u) is 1 / scale of row r. -/
theorem pay1_at (xb : Vec Ideal S1024x2048 .f32) (r : Fin 1024) (u : Fin 1) :
    k0_pay1 (k0_pay3 xb) (ix2 r u) = Cert.Glu.invs (fun k => xb (ix2 r k)) := by
  unfold k0_pay1 Cert.Glu.invs
  refine (divf_apply _ _ _).trans ?_
  exact congrArg (fun s => Ideal.div (lit 0x3F800000#32) s) (pay3_at xb r u)

/-! ## The two outputs at an index -/

/-- The first output at (r, c): the quantised level of row r at c. -/
theorem out0_1_at (xb : Vec Ideal Cert.KernelIdeal.S1024x2048 .f32) (r : Fin 1024) (c : Fin 2048) :
    Cert.KernelIdeal.Gen.out0_1 (F := Ideal) xb (ix2 r c) = Cert.Glu.qv (fun k => xb (ix2 r k)) c := by
  rw [out0_1_eq]
  exact pay4_at xb r c

/-- The second output at (r, 0): the reciprocal scale of row r. -/
theorem out0_2_at (xb : Vec Ideal Cert.KernelIdeal.S1024x2048 .f32) (r : Fin 1024) :
    Cert.KernelIdeal.Gen.out0_2 (F := Ideal) xb (ix2 r (0 : Fin 1)) = Cert.Glu.invs (fun k => xb (ix2 r k)) := by
  rw [out0_2_eq]
  exact pay1_at xb r 0

end Cert.Glu.Body0

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.Body12.lean ====
import proofs.«105572_j21706764714142_2_alg».proof.Proof.Gen.KernelIdeal.Frame
import proofs.«105572_j21706764714142_2_alg».proof.Proof.Spec
import proofs.«105572_j21706764714142_2_alg».proof.Proof.LibKeepdims
import proofs.«105572_j21706764714142_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-
  The two projection kernels read at an index.

  The up-projection block forms, for a row r of quantised levels q and a weight row h,
    g(r, h) = (sum_k q(r, k) * wg(h, k)) * s(r)          (s the row's inverse scale, a 256 x 1 column)
  and stores g and  logistic(g(r, h)) * ((sum_k q(r, k) * wu(h, k)) * s(r)).
  The down-projection block stores  logistic(sum_h g(r, h) * wd(j, h)) * p(r, j).
  The weight blocks enter transposed, the accumulator is zero, and the narrowing and widening conversions are the
  identity on the extended reals.
-/

noncomputable section

open scoped BigOperators
open Idealize.ShloMosaic Idealize.ShloMosaic.ValueIdx

namespace Cert.Glu.Body12

open Cert.KernelIdeal

/-- The transpose of an a x b array read at (k, c) is the array at (c, k). -/
private theorem transpose_10_apply {α : Type} {a b : ℕ} (x : (⟨2, ![a, b]⟩ : Shape).Idx → α)
    (h : (⟨2, ![a, b]⟩ : Shape).Transposes [1, 0] ⟨2, ![b, a]⟩) (k : Fin b) (c : Fin a) :
    transpose ⟨2, ![b, a]⟩ [1, 0] x h (ix2 k c) = x (ix2 c k) :=
  transpose_apply [1, 0] x h (ix2 k c) (ix2 c k) fun d => match d with
    | ⟨0, _⟩ => rfl
    | ⟨1, _⟩ => rfl

/-- The product of x (M x K) with the transpose of w (N x K) into the zero accumulator, at (r, h), is
    sum_k x(r, k) * w(h, k). -/
private theorem xwT_apply {M K N : ℕ} {φ₁ φ₂ : FTy} (x : FVec Ideal ⟨2, ![M, K]⟩ φ₁) (w : FVec Ideal ⟨2, ![N, K]⟩ φ₂)
    (hT : (⟨2, ![N, K]⟩ : Shape).Transposes [1, 0] ⟨2, ![K, N]⟩) (r : Fin M) (h : Fin N) :
    FloatOps.matmul (DotDims.plain M K N) none x (transpose ⟨2, ![K, N]⟩ [1, 0] w hT)
        (constant (⟨2, ![M, N]⟩ : Shape) .f32 0x00000000#32) (ix2 r h)
      = ∑ k : Fin K, x (ix2 r k) * w (ix2 h k) :=
  (PlainDot.matmul_zero_apply none x (transpose ⟨2, ![K, N]⟩ [1, 0] w hT) r h).trans
    (Finset.sum_congr rfl fun k _ => congrArg (x (ix2 r k) * ·) (transpose_10_apply w hT k h))

/-- The first kernel's contraction record is the plain 256 x 2048 by 2048 x 4096 product. -/
private theorem dot1_eq : dot_S256x2048_S2048x4096_S256x4096_1_0_0_1_n_n = DotDims.plain 256 2048 4096 := rfl

/-- The second kernel's contraction record is the plain 256 x 4096 by 4096 x 4096 product. -/
private theorem dot2_eq : dot_S256x4096_S4096x4096_S256x4096_1_0_0_1_n_n = DotDims.plain 256 4096 4096 := rfl

/-- The scaled product of the first kernel over variables: (x wT)(r, h) * s(r). -/
private theorem scaled_apply (x : FVec Ideal S256x2048 .bf16) (w : FVec Ideal S4096x2048 .bf16) (s : FVec Ideal S256x1 .f32)
    (hT : S4096x2048.Transposes [1, 0] S2048x4096) (hB : S256x1.Broadcasts S256x4096) (r : Fin 256) (h : Fin 4096) :
    mulf (FloatOps.matmul dot_S256x2048_S2048x4096_S256x4096_1_0_0_1_n_n none x (transpose S2048x4096 [1, 0] w hT)
        (constant S256x4096 .f32 0x00000000#32)) (broadcastTo S256x4096 s hB) (ix2 r h)
      = (∑ k : Fin 2048, x (ix2 r k) * w (ix2 h k)) * s (ix2 r (0 : Fin 1)) := by
  refine (mulf_apply _ _ _).trans ?_
  refine congrArg₂ (· * ·) ?_ (Keepdims.broadcastTo_a1_ab_apply s hB r h)
  rw [dot1_eq]
  exact xwT_apply x w hT r h

/-- The first kernel's scaled product at (r, h). -/
private theorem k1_pay3_at (q : Vec Ideal S256x2048 .bf16) (is : Vec Ideal S256x1 .f32) (w : Vec Ideal S4096x2048 .bf16)
    (r : Fin 256) (h : Fin 4096) :
    Gen.k1_pay3 (F := Ideal) q is w (ix2 r h) = (∑ k : Fin 2048, q (ix2 r k) * w (ix2 h k)) * is (ix2 r (0 : Fin 1)) := by
  unfold Gen.k1_pay3 Gen.k1_pay1 Gen.k1_pay2
  simp only [shapeCast_self]
  exact scaled_apply q w is _ _ r h

/-- Narrowing to the shorter format is the identity on the extended reals. -/
private theorem narrowed_apply (a : FVec Ideal S256x4096 .f32) (hb : FTy.bits .bf16 < FTy.bits .f32) (i : S256x4096.Idx) :
    (truncf .bf16 a hb : FVec Ideal S256x4096 .bf16) i = a i := rfl

/-- The first stored block of the first kernel at (r, h): the scaled product, narrowed (the identity here). -/
private theorem k1_pay4_at (q : Vec Ideal S256x2048 .bf16) (is : Vec Ideal S256x1 .f32) (w : Vec Ideal S4096x2048 .bf16)
    (r : Fin 256) (h : Fin 4096) :
    Gen.k1_pay4 (F := Ideal) q is w (ix2 r h) = (∑ k : Fin 2048, q (ix2 r k) * w (ix2 h k)) * is (ix2 r (0 : Fin 1)) := by
  unfold Gen.k1_pay4
  exact (narrowed_apply _ _ _).trans (k1_pay3_at q is w r h)

/-- The gated form over variables: logistic(a) * b, narrowed, at an index. -/
private theorem gated_apply (a b : FVec Ideal S256x4096 .f32) (hb : FTy.bits .bf16 < FTy.bits .f32) (i : S256x4096.Idx) :
    (truncf .bf16 (mulf (logistic a) b) hb : FVec Ideal S256x4096 .bf16) i = Ideal.logistic (a i) * b i := rfl

/-- The second stored block of the first kernel at (r, h): logistic(g) * u. -/
private theorem k1_pay5_at (q : Vec Ideal S256x2048 .bf16) (is : Vec Ideal S256x1 .f32) (wg wu : Vec Ideal S4096x2048 .bf16)
    (r : Fin 256) (h : Fin 4096) :
    Gen.k1_pay5 (F := Ideal) q is wg wu (ix2 r h)
      = Ideal.logistic ((∑ k : Fin 2048, q (ix2 r k) * wg (ix2 h k)) * is (ix2 r (0 : Fin 1)))
        * ((∑ k : Fin 2048, q (ix2 r k) * wu (ix2 h k)) * is (ix2 r (0 : Fin 1))) := by
  unfold Gen.k1_pay5 Gen.k1_pay1 Gen.k1_pay2
  simp only [shapeCast_self]
  refine (gated_apply _ _ _ _).trans ?_
  exact congrArg₂ (fun a b => Ideal.logistic a * b) (k1_pay3_at q is wg r h) (scaled_apply q wu is _ _ r h)

/-- The second kernel's stored block over variables. -/
private theorem down_apply (g p : FVec Ideal S256x4096 .bf16) (wd : FVec Ideal S4096x4096 .bf16)
    (hT : S4096x4096.Transposes [1, 0] S4096x4096) (hb : FTy.bits .bf16 < FTy.bits .f32) (r : Fin 256) (j : Fin 4096) :
    mulf (logistic (FloatOps.matmul dot_S256x4096_S4096x4096_S256x4096_1_0_0_1_n_n none g (transpose S4096x4096 [1, 0] wd hT)
        (constant S256x4096 .f32 0x00000000#32))) (extf .f32 p hb) (ix2 r j)
      = Ideal.logistic (∑ h : Fin 4096, g (ix2 r h) * wd (ix2 j h)) * p (ix2 r j) := by
  refine (mulf_apply _ _ _).trans ?_
  refine congrArg₂ (fun a b => Ideal.logistic a * b) ?_ (extf_apply p hb (ix2 r j))
  rw [dot2_eq]
  exact xwT_apply g wd hT r j

/-- The second kernel's stored block at (r, j). -/
private theorem k2_pay1_at (g p : Vec Ideal S256x4096 .bf16) (wd : Vec Ideal S4096x4096 .bf16) (r : Fin 256) (j : Fin 4096) :
    Gen.k2_pay1 (F := Ideal) g p wd (ix2 r j) = Ideal.logistic (∑ h : Fin 4096, g (ix2 r h) * wd (ix2 j h)) * p (ix2 r j) := by
  unfold Gen.k2_pay1
  simp only [shapeCast_self]
  exact down_apply g p wd _ _ r j

/-- The blocks' offsets are zero. -/
private theorem off_zero : (![0, 0] : Fin 2 → Nat) = fun _ => 0 := funext fun a => by
  match a with
  | ⟨0, _⟩ => rfl
  | ⟨1, _⟩ => rfl

/-- The first kernel's first output block is its payload at the input blocks. -/
private theorem out1_4_eq (q : Vec Ideal S256x2048 .bf16) (is : Vec Ideal S256x1 .f32) (wg wu : Vec Ideal S4096x2048 .bf16) :
    Gen.out1_4 (F := Ideal) q is wg wu = Gen.k1_pay4 (F := Ideal) q is wg := by
  unfold Gen.out1_4
  rw [View.canon_unit_zero off_zero]
  simp only [View.ld_unit_zero (S := S256x2048) off_zero, View.ld_unit_zero (S := S256x1) off_zero,
    View.ld_unit_zero (S := S4096x2048) off_zero]

/-- The first kernel's second output block is its payload at the input blocks. -/
private theorem out1_5_eq (q : Vec Ideal S256x2048 .bf16) (is : Vec Ideal S256x1 .f32) (wg wu : Vec Ideal S4096x2048 .bf16) :
    Gen.out1_5 (F := Ideal) q is wg wu = Gen.k1_pay5 (F := Ideal) q is wg wu := by
  unfold Gen.out1_5
  rw [View.canon_unit_zero off_zero]
  simp only [View.ld_unit_zero (S := S256x2048) off_zero, View.ld_unit_zero (S := S256x1) off_zero,
    View.ld_unit_zero (S := S4096x2048) off_zero]

/-- The second kernel's output block is its payload at the input blocks. -/
private theorem out2_3_eq (g p : Vec Ideal S256x4096 .bf16) (wd : Vec Ideal S4096x4096 .bf16) :
    Gen.out2_3 (F := Ideal) g p wd = Gen.k2_pay1 (F := Ideal) g p wd := by
  unfold Gen.out2_3
  rw [View.canon_unit_zero off_zero]
  simp only [View.ld_unit_zero (S := S256x4096) off_zero, View.ld_unit_zero (S := S4096x4096) off_zero]

/-- The up-projection block's first output at (r, h): (sum_k q(r, k) * wg(h, k)) * s(r). -/
theorem out1_4_at (q : Vec Ideal S256x2048 .bf16) (is : Vec Ideal S256x1 .f32) (wg wu : Vec Ideal S4096x2048 .bf16) (r : Fin 256) (h : Fin 4096) :
    Cert.KernelIdeal.Gen.out1_4 (F := Ideal) q is wg wu (ix2 r h) = (∑ k : Fin 2048, q (ix2 r k) * wg (ix2 h k)) * is (ix2 r (0 : Fin 1)) :=
  (congrFun (out1_4_eq q is wg wu) (ix2 r h)).trans (k1_pay4_at q is wg r h)

/-- The up-projection block's second output at (r, h): logistic(g(r, h)) * u(r, h). -/
theorem out1_5_at (q : Vec Ideal S256x2048 .bf16) (is : Vec Ideal S256x1 .f32) (wg wu : Vec Ideal S4096x2048 .bf16) (r : Fin 256) (h : Fin 4096) :
    Cert.KernelIdeal.Gen.out1_5 (F := Ideal) q is wg wu (ix2 r h)
      = Ideal.logistic ((∑ k : Fin 2048, q (ix2 r k) * wg (ix2 h k)) * is (ix2 r (0 : Fin 1)))
        * ((∑ k : Fin 2048, q (ix2 r k) * wu (ix2 h k)) * is (ix2 r (0 : Fin 1))) :=
  (congrFun (out1_5_eq q is wg wu) (ix2 r h)).trans (k1_pay5_at q is wg wu r h)

/-- The down-projection block's output at (r, j): logistic(sum_h g(r, h) * wd(j, h)) * p(r, j). -/
theorem out2_3_at (g p : Vec Ideal S256x4096 .bf16) (wd : Vec Ideal S4096x4096 .bf16) (r : Fin 256) (j : Fin 4096) :
    Cert.KernelIdeal.Gen.out2_3 (F := Ideal) g p wd (ix2 r j) = Ideal.logistic (∑ h : Fin 4096, g (ix2 r h) * wd (ix2 j h)) * p (ix2 r j) :=
  (congrFun (out2_3_eq g p wd) (ix2 r j)).trans (k2_pay1_at g p wd r j)

end Cert.Glu.Body12

end
-- ==== Proof.Blocks0.lean ====
import proofs.«105572_j21706764714142_2_alg».proof.Proof.Gen.KernelIdeal.Frame
import proofs.«105572_j21706764714142_2_alg».proof.Proof.Spec
import Idealize.ShloMosaic.Lib.Pipeline.Value
import Idealize.ShloMosaic.Lib.ValueIdx

set_option maxRecDepth 16384

noncomputable section

open scoped BigOperators

namespace Cert.Glu.Blocks0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the eight grid points: point t moves every window to row block t, column block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 8 := by have := t.isLt; have h : cfg0.N = 8 := N_0; omega

/-- Entry (r, k) of point t's block of the input is entry (1024 t + r, k) of the array. -/
theorem iblk0_0_at (c : Dev nD) (t : Fin cfg0.N) (r : Fin 1024) (k : Fin 2048) :
    iblk0 V c 0 t (ix2 r k) = V c main_arg0 (ix2 (⟨t.val * 1024 + r.val, by have := t_lt t; omega⟩ : Fin 8192) k) := by
  show V c main_arg0 (((cfg0.win 0).blk t).view.emb (ix2 r k)) = _
  refine congrArg (V c main_arg0) ?_
  obtain ⟨e0, e1, -⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 2048 + 1 * k.val = k.val; omega

/-- The quantised levels of the whole array: row by row. -/
def Q0 (c : Dev nD) : S8192x2048.Idx → EReal := fun i =>
  qv (fun k => V c main_arg0 (ix2 (⟨(i 0).val, (i 0).isLt⟩ : Fin 8192) k)) ⟨(i 1).val, (i 1).isLt⟩

/-- The reciprocal scales of the whole array, one per row. -/
def IS0 (c : Dev nD) : S8192x1.Idx → EReal := fun i =>
  invs (fun k => V c main_arg0 (ix2 (⟨(i 0).val, (i 0).isLt⟩ : Fin 8192) k))

/-- What point t writes back through the first output window is block t of the row-wise quantised levels. -/
theorem flushed0_1_eq
    (hq : ∀ (xb : Vec Ideal S1024x2048 .f32) (r : Fin 1024) (cc : Fin 2048),
      out0_1 (F := Ideal) xb (ix2 r cc) = qv (fun k => xb (ix2 r k)) cc)
    (c : Dev nD) (t : Fin cfg0.N) :
    (dat0 V c).flushed 1 t = ((cfg0.win 1).blk t).view.read (Elt Ideal) (Q0 V c) := by
  show (cfg0.win 1).cut (grid0.coords t) ((dat0 V c).after 1 t) = _
  rw [after0_1]
  funext y
  obtain ⟨r, cc, rfl⟩ : ∃ (r : Fin 1024) (cc : Fin 2048), y = ix2 r cc := ⟨y 0, y 1, eq_ix2 y⟩
  show out0_1 (iblk0 V c 0 t) (ix2 r cc) = Q0 V c (((cfg0.win 1).blk t).view.emb (ix2 r cc))
  refine (hq (iblk0 V c 0 t) r cc).trans ?_
  obtain ⟨-, -, e2, e3, -⟩ := idx0 t
  have h0 : (⟨((((cfg0.win 1).blk t).view.emb (ix2 r cc)) 0).val, ((((cfg0.win 1).blk t).view.emb (ix2 r cc)) 0).isLt⟩ : Fin 8192)
      = ⟨t.val * 1024 + r.val, by have := t_lt t; omega⟩ :=
    Fin.ext (show win0_1.index t (0 : Fin 2) * 1024 + 1 * r.val = t.val * 1024 + r.val by omega)
  have h1 : (⟨((((cfg0.win 1).blk t).view.emb (ix2 r cc)) 1).val, ((((cfg0.win 1).blk t).view.emb (ix2 r cc)) 1).isLt⟩ : Fin 2048) = cc :=
    Fin.ext (show win0_1.index t (1 : Fin 2) * 2048 + 1 * cc.val = cc.val by omega)
  unfold Q0
  rw [h0, h1]
  exact congrArg (fun f => qv f cc) (funext fun k => iblk0_0_at V c t r k)

/-- What point t writes back through the second output window is block t of the per-row reciprocal scales. -/
theorem flushed0_2_eq
    (hs : ∀ (xb : Vec Ideal S1024x2048 .f32) (r : Fin 1024),
      out0_2 (F := Ideal) xb (ix2 r (0 : Fin 1)) = invs (fun k => xb (ix2 r k)))
    (c : Dev nD) (t : Fin cfg0.N) :
    (dat0 V c).flushed 2 t = ((cfg0.win 2).blk t).view.read (Elt Ideal) (IS0 V c) := by
  show (cfg0.win 2).cut (grid0.coords t) ((dat0 V c).after 2 t) = _
  rw [after0_2]
  funext y
  obtain ⟨r, u, rfl⟩ : ∃ (r : Fin 1024) (u : Fin 1), y = ix2 r u := ⟨y 0, y 1, eq_ix2 y⟩
  obtain rfl : u = 0 := Fin.ext (by omega)
  show out0_2 (iblk0 V c 0 t) (ix2 r (0 : Fin 1)) = IS0 V c (((cfg0.win 2).blk t).view.emb (ix2 r (0 : Fin 1)))
  refine (hs (iblk0 V c 0 t) r).trans ?_
  obtain ⟨-, -, -, -, e4, e5⟩ := idx0 t
  have h0 : (⟨((((cfg0.win 2).blk t).view.emb (ix2 r (0 : Fin 1))) 0).val, ((((cfg0.win 2).blk t).view.emb (ix2 r (0 : Fin 1))) 0).isLt⟩ : Fin 8192)
      = ⟨t.val * 1024 + r.val, by have := t_lt t; omega⟩ :=
    Fin.ext (show win0_2.index t (0 : Fin 2) * 1024 + 1 * r.val = t.val * 1024 + r.val by omega)
  unfold IS0
  rw [h0]
  exact congrArg invs (funext fun k => iblk0_0_at V c t r k)

theorem mem_blk0_1 (t : Fin cfg0.N) (i : S8192x2048.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v60_0).slice (win0_1.rect t)).set ↔ _
  rw [View.set_slice_whole, Rect.mem_set_unit]
  exact Iff.rfl

theorem mem_blk0_2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v60_1).slice (win0_2.rect t)).set ↔ _
  rw [View.set_slice_whole, Rect.mem_set_unit]
  exact Iff.rfl

/-- Row i0 lies in the block of point i0 / 1024. -/
theorem covered0_1 (i : S8192x2048.Idx) :
    ∃ t : Fin cfg0.N, (cfg0.win 1).flush t = true ∧ i ∈ ((cfg0.win 1).blk t).view.set := by
  have hi0 : (i 0).val < 8192 := (i 0).isLt
  have hi1 : (i 1).val < 2048 := (i 1).isLt
  have hN : cfg0.N = 8 := N_0
  have ht : (i 0).val / 1024 < cfg0.N := by rw [hN]; omega
  obtain ⟨-, -, e2, e3, -⟩ := idx0 ⟨(i 0).val / 1024, ht⟩
  refine ⟨⟨(i 0).val / 1024, ht⟩, flush0_1 _, ?_⟩
  rw [mem_blk0_1]
  intro a
  match a with
  | ⟨0, _⟩ =>
    show win0_1.index ⟨(i 0).val / 1024, ht⟩ (0 : Fin 2) * 1024 ≤ (i 0).val ∧ (i 0).val < win0_1.index ⟨(i 0).val / 1024, ht⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, ht⟩ (1 : Fin 2) * 2048 ≤ (i 1).val ∧ (i 1).val < win0_1.index ⟨(i 0).val / 1024, ht⟩ (1 : Fin 2) * 2048 + 2048
    rw [e3]; omega

theorem covered0_2 (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 8 := N_0
  have ht : (i 0).val / 1024 < cfg0.N := by rw [hN]; omega
  obtain ⟨-, -, -, -, e4, e5⟩ := idx0 ⟨(i 0).val / 1024, ht⟩
  refine ⟨⟨(i 0).val / 1024, ht⟩, flush0_2 _, ?_⟩
  rw [mem_blk0_2]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 1 ≤ (i 1).val ∧ (i 1).val < win0_2.index ⟨(i 0).val / 1024, ht⟩ (1 : Fin 2) * 1 + 1
    rw [e5]; omega

/-- After the first region the levels array holds the row-wise quantised levels of the input as the region found it. -/
theorem final0_1
    (hq : ∀ (xb : Vec Ideal S1024x2048 .f32) (r : Fin 1024) (cc : Fin 2048),
      out0_1 (F := Ideal) xb (ix2 r cc) = qv (fun k => xb (ix2 r k)) cc)
    (c : Dev nD) : (dat0 V c).arrAt 1 cfg0.N = Q0 V c :=
  (dat0 V c).arrAt_eq_of_cover 1 (Q0 V c) (fun t _ => flushed0_1_eq V hq c t) covered0_1

/-- ... and the scales array the per-row reciprocal scales. -/
theorem final0_2
    (hs : ∀ (xb : Vec Ideal S1024x2048 .f32) (r : Fin 1024),
      out0_2 (F := Ideal) xb (ix2 r (0 : Fin 1)) = invs (fun k => xb (ix2 r k)))
    (c : Dev nD) : (dat0 V c).arrAt 2 cfg0.N = IS0 V c :=
  (dat0 V c).arrAt_eq_of_cover 2 (IS0 V c) (fun t _ => flushed0_2_eq V hs c t) covered0_2

end Cert.Glu.Blocks0

end
-- ==== Proof.Blocks1.lean ====
import proofs.«105572_j21706764714142_2_alg».proof.Proof.Gen.KernelIdeal.Frame
import proofs.«105572_j21706764714142_2_alg».proof.Proof.Spec
import Idealize.ShloMosaic.Lib.Pipeline.Value
import Idealize.ShloMosaic.Lib.ValueIdx

set_option maxRecDepth 16384

noncomputable section

open scoped BigOperators

namespace Cert.Glu.Blocks1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the 32 grid points: the row-blocked windows move to row block t, the weights stay whole. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 32 := by have := t.isLt; have h : cfg1.N = 32 := N_1; omega

/-- Entry (r, k) of point t's block of the levels is entry (256 t + r, k) of the array. -/
theorem iblk1_0_at (c : Dev nD) (t : Fin cfg1.N) (r : Fin 256) (k : Fin 2048) :
    iblk1 V c 0 t (ix2 r k) = V c main_v60_0 (ix2 (⟨t.val * 256 + r.val, by have := t_lt t; omega⟩ : Fin 8192) k) := by
  show V c main_v60_0 (((cfg1.win 0).blk t).view.emb (ix2 r k)) = _
  refine congrArg (V c main_v60_0) ?_
  obtain ⟨e0, e1, -⟩ := idx1 t
  funext a; apply Fin.ext
  match a with
  | ⟨0, _⟩ => show win1_0.index t (0 : Fin 2) * 256 + 1 * r.val = t.val * 256 + r.val; omega
  | ⟨1, _⟩ => show win1_0.index t (1 : Fin 2) * 2048 + 1 * k.val = k.val; omega

theorem iblk1_1_at (c : Dev nD) (t : Fin cfg1.N) (r : Fin 256) :
    iblk1 V c 1 t (ix2 r (0 : Fin 1)) = V c main_v60_1 (ix2 (⟨t.val * 256 + r.val, by have := t_lt t; omega⟩ : Fin 8192) (0 : Fin 1)) := by
  show V c main_v60_1 (((cfg1.win 1).blk t).view.emb (ix2 r (0 : Fin 1))) = _
  refine congrArg (V c main_v60_1) ?_
  obtain ⟨-, -, e2, e3, -⟩ := idx1 t
  funext a; apply Fin.ext
  match a with
  | ⟨0, _⟩ => show win1_1.index t (0 : Fin 2) * 256 + 1 * r.val = t.val * 256 + r.val; omega
  | ⟨1, _⟩ => show win1_1.index t (1 : Fin 2) * 1 + 1 * 0 = 0; omega

/-- The weight windows hold the whole weight at every point. -/
theorem iblk1_2_at (c : Dev nD) (t : Fin cfg1.N) (h : Fin 4096) (k : Fin 2048) :
    iblk1 V c 2 t (ix2 h k) = V c main_v19 (ix2 h k) := by
  show V c main_v19 (((cfg1.win 2).blk t).view.emb (ix2 h k)) = _
  refine congrArg (V c main_v19) ?_
  obtain ⟨-, -, -, -, e4, e5, -⟩ := idx1 t
  funext a; apply Fin.ext
  match a with
  | ⟨0, _⟩ => show win1_2.index t (0 : Fin 2) * 4096 + 1 * h.val = h.val; omega
  | ⟨1, _⟩ => show win1_2.index t (1 : Fin 2) * 2048 + 1 * k.val = k.val; omega

theorem iblk1_3_at (c : Dev nD) (t : Fin cfg1.N) (h : Fin 4096) (k : Fin 2048) :
    iblk1 V c 3 t (ix2 h k) = V c main_v39 (ix2 h k) := by
  show V c main_v39 (((cfg1.win 3).blk t).view.emb (ix2 h k)) = _
  refine congrArg (V c main_v39) ?_
  obtain ⟨-, -, -, -, -, -, e6, e7, -⟩ := idx1 t
  funext a; apply Fin.ext
  match a with
  | ⟨0, _⟩ => show win1_3.index t (0 : Fin 2) * 4096 + 1 * h.val = h.val; omega
  | ⟨1, _⟩ => show win1_3.index t (1 : Fin 2) * 2048 + 1 * k.val = k.val; omega

/-- A contraction over a block row against a weight row is the contraction over the arrays' rows the block entries are. -/
theorem sum_blk (A : S256x2048.Idx → EReal) (B : S4096x2048.Idx → EReal) (A' : S8192x2048.Idx → EReal) (B' : S4096x2048.Idx → EReal)
    (r : Fin 256) (h : Fin 4096) (n : Fin 8192)
    (hA : ∀ k : Fin 2048, A (ix2 r k) = A' (ix2 n k)) (hB : ∀ k : Fin 2048, B (ix2 h k) = B' (ix2 h k)) :
    (∑ k : Fin 2048, A (ix2 r k) * B (ix2 h k)) = ∑ k : Fin 2048, A' (ix2 n k) * B' (ix2 h k) :=
  Finset.sum_congr rfl fun k _ => by rw [hA, hB]

/-- The region's four input arrays as functions into the extended reals. -/
abbrev aQ (c : Dev nD) : S8192x2048.Idx → EReal := V c main_v60_0
abbrev aS (c : Dev nD) : S8192x1.Idx → EReal := V c main_v60_1
abbrev aWg (c : Dev nD) : S4096x2048.Idx → EReal := V c main_v19
abbrev aWu (c : Dev nD) : S4096x2048.Idx → EReal := V c main_v39

/-- The gate projection of the whole array. -/
def G1 (c : Dev nD) : S8192x4096.Idx → EReal := fun i =>
  (∑ k : Fin 2048, aQ V c (ix2 (⟨(i 0).val, (i 0).isLt⟩ : Fin 8192) k) * aWg V c (ix2 (⟨(i 1).val, (i 1).isLt⟩ : Fin 4096) k))
    * aS V c (ix2 (⟨(i 0).val, (i 0).isLt⟩ : Fin 8192) (0 : Fin 1))

/-- logistic(g) * u of the whole array. -/
def P1 (c : Dev nD) : S8192x4096.Idx → EReal := fun i =>
  Ideal.logistic (G1 V c i)
    * ((∑ k : Fin 2048, aQ V c (ix2 (⟨(i 0).val, (i 0).isLt⟩ : Fin 8192) k) * aWu V c (ix2 (⟨(i 1).val, (i 1).isLt⟩ : Fin 4096) k))
        * aS V c (ix2 (⟨(i 0).val, (i 0).isLt⟩ : Fin 8192) (0 : Fin 1)))

theorem flushed1_4_eq
    (hg : ∀ (q : Vec Ideal S256x2048 .bf16) (is : Vec Ideal S256x1 .f32) (wg wu : Vec Ideal S4096x2048 .bf16) (r : Fin 256) (h : Fin 4096),
      out1_4 (F := Ideal) q is wg wu (ix2 r h) = (∑ k : Fin 2048, q (ix2 r k) * wg (ix2 h k)) * is (ix2 r (0 : Fin 1)))
    (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  funext y
  obtain ⟨r, h, rfl⟩ : ∃ (r : Fin 256) (h : Fin 4096), y = ix2 r h := ⟨y 0, y 1, eq_ix2 y⟩
  show out1_4 (iblk1 V c 0 t) (iblk1 V c 1 t) (iblk1 V c 2 t) (iblk1 V c 3 t) (ix2 r h) = G1 V c (((cfg1.win 4).blk t).view.emb (ix2 r h))
  refine (hg (iblk1 V c 0 t) (iblk1 V c 1 t) (iblk1 V c 2 t) (iblk1 V c 3 t) r h).trans ?_
  obtain ⟨-, -, -, -, -, -, -, -, e8, e9, -⟩ := idx1 t
  have h0 : (⟨((((cfg1.win 4).blk t).view.emb (ix2 r h)) 0).val, ((((cfg1.win 4).blk t).view.emb (ix2 r h)) 0).isLt⟩ : Fin 8192)
      = ⟨t.val * 256 + r.val, by have := t_lt t; omega⟩ :=
    Fin.ext (show win1_4.index t (0 : Fin 2) * 256 + 1 * r.val = t.val * 256 + r.val by omega)
  have h1 : (⟨((((cfg1.win 4).blk t).view.emb (ix2 r h)) 1).val, ((((cfg1.win 4).blk t).view.emb (ix2 r h)) 1).isLt⟩ : Fin 4096) = h :=
    Fin.ext (show win1_4.index t (1 : Fin 2) * 4096 + 1 * h.val = h.val by omega)
  unfold G1
  rw [h0, h1, iblk1_1_at V c t r]
  exact congrArg (· * _) (Finset.sum_congr rfl fun k _ => by rw [iblk1_0_at V c t r k, iblk1_2_at V c t h k])

theorem flushed1_5_eq
    (hp : ∀ (q : Vec Ideal S256x2048 .bf16) (is : Vec Ideal S256x1 .f32) (wg wu : Vec Ideal S4096x2048 .bf16) (r : Fin 256) (h : Fin 4096),
      out1_5 (F := Ideal) q is wg wu (ix2 r h)
        = Ideal.logistic ((∑ k : Fin 2048, q (ix2 r k) * wg (ix2 h k)) * is (ix2 r (0 : Fin 1)))
          * ((∑ k : Fin 2048, q (ix2 r k) * wu (ix2 h k)) * is (ix2 r (0 : Fin 1))))
    (c : Dev nD) (t : Fin cfg1.N) :
    (dat1 V c).flushed 5 t = ((cfg1.win 5).blk t).view.read (Elt Ideal) (P1 V c) := by
  show (cfg1.win 5).cut (grid1.coords t) ((dat1 V c).after 5 t) = _
  rw [after1_5]
  funext y
  obtain ⟨r, h, rfl⟩ : ∃ (r : Fin 256) (h : Fin 4096), y = ix2 r h := ⟨y 0, y 1, eq_ix2 y⟩
  show out1_5 (iblk1 V c 0 t) (iblk1 V c 1 t) (iblk1 V c 2 t) (iblk1 V c 3 t) (ix2 r h) = P1 V c (((cfg1.win 5).blk t).view.emb (ix2 r h))
  refine (hp (iblk1 V c 0 t) (iblk1 V c 1 t) (iblk1 V c 2 t) (iblk1 V c 3 t) r h).trans ?_
  obtain ⟨-, -, -, -, -, -, -, -, -, -, e10, e11⟩ := idx1 t
  have h0 : (⟨((((cfg1.win 5).blk t).view.emb (ix2 r h)) 0).val, ((((cfg1.win 5).blk t).view.emb (ix2 r h)) 0).isLt⟩ : Fin 8192)
      = ⟨t.val * 256 + r.val, by have := t_lt t; omega⟩ :=
    Fin.ext (show win1_5.index t (0 : Fin 2) * 256 + 1 * r.val = t.val * 256 + r.val by omega)
  have h1 : (⟨((((cfg1.win 5).blk t).view.emb (ix2 r h)) 1).val, ((((cfg1.win 5).blk t).view.emb (ix2 r h)) 1).isLt⟩ : Fin 4096) = h :=
    Fin.ext (show win1_5.index t (1 : Fin 2) * 4096 + 1 * h.val = h.val by omega)
  unfold P1 G1
  rw [h0, h1, iblk1_1_at V c t r]
  rw [sum_blk (iblk1 V c 0 t) (iblk1 V c 2 t) (aQ V c) (aWg V c) r h _ (iblk1_0_at V c t r) (iblk1_2_at V c t h),
    sum_blk (iblk1 V c 0 t) (iblk1 V c 3 t) (aQ V c) (aWu V c) r h _ (iblk1_0_at V c t r) (iblk1_3_at V c t h)]

theorem mem_blk1_4 (t : Fin cfg1.N) (i : S8192x4096.Idx) :
    i ∈ ((cfg1.win 4).blk t).view.set ↔ ∀ a : Fin 2, win1_4.index t a * S256x4096.size a ≤ (i a).val ∧ (i a).val < win1_4.index t a * S256x4096.size a + S256x4096.size a := by
  show i ∈ ((View.whole main_v61_0).slice (win1_4.rect t)).set ↔ _
  rw [View.set_slice_whole, Rect.mem_set_unit]
  exact Iff.rfl

theorem mem_blk1_5 (t : Fin cfg1.N) (i : S8192x4096.Idx) :
    i ∈ ((cfg1.win 5).blk t).view.set ↔ ∀ a : Fin 2, win1_5.index t a * S256x4096.size a ≤ (i a).val ∧ (i a).val < win1_5.index t a * S256x4096.size a + S256x4096.size a := by
  show i ∈ ((View.whole main_v61_1).slice (win1_5.rect t)).set ↔ _
  rw [View.set_slice_whole, Rect.mem_set_unit]
  exact Iff.rfl

/-- Row i0 lies in the block of point i0 / 256. -/
theorem covered1_4 (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  have hN : cfg1.N = 32 := N_1
  have ht : (i 0).val / 256 < cfg1.N := by rw [hN]; omega
  obtain ⟨-, -, -, -, -, -, -, -, e8, e9, -⟩ := idx1 ⟨(i 0).val / 256, ht⟩
  refine ⟨⟨(i 0).val / 256, ht⟩, flush1_4 _, ?_⟩
  rw [mem_blk1_4]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    rw [e8]; show (i 0).val / 256 * 256 ≤ (i 0).val ∧ (i 0).val < (i 0).val / 256 * 256 + 256; omega
  | ⟨1, _⟩ =>
    show win1_4.index ⟨(i 0).val / 256, ht⟩ (1 : Fin 2) * 4096 ≤ (i 1).val ∧ (i 1).val < win1_4.index ⟨(i 0).val / 256, ht⟩ (1 : Fin 2) * 4096 + 4096
    rw [e9]; omega

theorem covered1_5 (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 32 := N_1
  have ht : (i 0).val / 256 < cfg1.N := by rw [hN]; omega
  obtain ⟨-, -, -, -, -, -, -, -, -, -, e10, e11⟩ := idx1 ⟨(i 0).val / 256, ht⟩
  refine ⟨⟨(i 0).val / 256, ht⟩, flush1_5 _, ?_⟩
  rw [mem_blk1_5]
  intro a
  match a with
  | ⟨0, _⟩ =>
    show win1_5.index ⟨(i 0).val / 256, ht⟩ (0 : Fin 2) * 256 ≤ (i 0).val ∧ (i 0).val < win1_5.index ⟨(i 0).val / 256, ht⟩ (0 : Fin 2) * 256 + 256
    rw [e10]; show (i 0).val / 256 * 256 ≤ (i 0).val ∧ (i 0).val < (i 0).val / 256 * 256 + 256; omega
  | ⟨1, _⟩ =>
    show win1_5.index ⟨(i 0).val / 256, ht⟩ (1 : Fin 2) * 4096 ≤ (i 1).val ∧ (i 1).val < win1_5.index ⟨(i 0).val / 256, ht⟩ (1 : Fin 2) * 4096 + 4096
    rw [e11]; omega

theorem final1_4
    (hg : ∀ (q : Vec Ideal S256x2048 .bf16) (is : Vec Ideal S256x1 .f32) (wg wu : Vec Ideal S4096x2048 .bf16) (r : Fin 256) (h : Fin 4096),
      out1_4 (F := Ideal) q is wg wu (ix2 r h) = (∑ k : Fin 2048, q (ix2 r k) * wg (ix2 h k)) * is (ix2 r (0 : Fin 1)))
    (c : Dev nD) : (dat1 V c).arrAt 4 cfg1.N = G1 V c :=
  (dat1 V c).arrAt_eq_of_cover 4 (G1 V c) (fun t _ => flushed1_4_eq V hg c t) covered1_4

theorem final1_5
    (hp : ∀ (q : Vec Ideal S256x2048 .bf16) (is : Vec Ideal S256x1 .f32) (wg wu : Vec Ideal S4096x2048 .bf16) (r : Fin 256) (h : Fin 4096),
      out1_5 (F := Ideal) q is wg wu (ix2 r h)
        = Ideal.logistic ((∑ k : Fin 2048, q (ix2 r k) * wg (ix2 h k)) * is (ix2 r (0 : Fin 1)))
          * ((∑ k : Fin 2048, q (ix2 r k) * wu (ix2 h k)) * is (ix2 r (0 : Fin 1))))
    (c : Dev nD) : (dat1 V c).arrAt 5 cfg1.N = P1 V c :=
  (dat1 V c).arrAt_eq_of_cover 5 (P1 V c) (fun t _ => flushed1_5_eq V hp c t) covered1_5

end Cert.Glu.Blocks1

end
-- ==== Proof.Blocks2.lean ====
import proofs.«105572_j21706764714142_2_alg».proof.Proof.Gen.KernelIdeal.Frame
import proofs.«105572_j21706764714142_2_alg».proof.Proof.Spec
import Idealize.ShloMosaic.Lib.Pipeline.Value
import Idealize.ShloMosaic.Lib.ValueIdx

set_option maxRecDepth 16384

noncomputable section

open scoped BigOperators

namespace Cert.Glu.Blocks2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the 32 grid points: the row-blocked windows move to row block t, the weight stays whole. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 32 := by have := t.isLt; have h : cfg2.N = 32 := N_2; omega

/-- Entry (r, h) of point t's block of the gate projection is entry (256 t + r, h) of the array. -/
theorem iblk2_0_at (c : Dev nD) (t : Fin cfg2.N) (r : Fin 256) (h : Fin 4096) :
    iblk2 V c 0 t (ix2 r h) = V c main_v61_0 (ix2 (⟨t.val * 256 + r.val, by have := t_lt t; omega⟩ : Fin 8192) h) := by
  show V c main_v61_0 (((cfg2.win 0).blk t).view.emb (ix2 r h)) = _
  refine congrArg (V c main_v61_0) ?_
  obtain ⟨e0, e1, -⟩ := idx2 t
  funext a; apply Fin.ext
  match a with
  | ⟨0, _⟩ => show win2_0.index t (0 : Fin 2) * 256 + 1 * r.val = t.val * 256 + r.val; omega
  | ⟨1, _⟩ => show win2_0.index t (1 : Fin 2) * 4096 + 1 * h.val = h.val; omega

theorem iblk2_1_at (c : Dev nD) (t : Fin cfg2.N) (r : Fin 256) (h : Fin 4096) :
    iblk2 V c 1 t (ix2 r h) = V c main_v61_1 (ix2 (⟨t.val * 256 + r.val, by have := t_lt t; omega⟩ : Fin 8192) h) := by
  show V c main_v61_1 (((cfg2.win 1).blk t).view.emb (ix2 r h)) = _
  refine congrArg (V c main_v61_1) ?_
  obtain ⟨-, -, e2, e3, -⟩ := idx2 t
  funext a; apply Fin.ext
  match a with
  | ⟨0, _⟩ => show win2_1.index t (0 : Fin 2) * 256 + 1 * r.val = t.val * 256 + r.val; omega
  | ⟨1, _⟩ => show win2_1.index t (1 : Fin 2) * 4096 + 1 * h.val = h.val; omega

/-- The weight window holds the whole weight at every point. -/
theorem iblk2_2_at (c : Dev nD) (t : Fin cfg2.N) (j h : Fin 4096) :
    iblk2 V c 2 t (ix2 j h) = V c main_v59 (ix2 j h) := by
  show V c main_v59 (((cfg2.win 2).blk t).view.emb (ix2 j h)) = _
  refine congrArg (V c main_v59) ?_
  obtain ⟨-, -, -, -, e4, e5, -⟩ := idx2 t
  funext a; apply Fin.ext
  match a with
  | ⟨0, _⟩ => show win2_2.index t (0 : Fin 2) * 4096 + 1 * j.val = j.val; omega
  | ⟨1, _⟩ => show win2_2.index t (1 : Fin 2) * 4096 + 1 * h.val = h.val; omega

/-- A contraction over a block row against a weight row is the contraction over the arrays' rows the block entries are. -/
theorem sum_blk (A : S256x4096.Idx → EReal) (B : S4096x4096.Idx → EReal) (A' : S8192x4096.Idx → EReal) (B' : S4096x4096.Idx → EReal)
    (r : Fin 256) (j : Fin 4096) (n : Fin 8192)
    (hA : ∀ h : Fin 4096, A (ix2 r h) = A' (ix2 n h)) (hB : ∀ h : Fin 4096, B (ix2 j h) = B' (ix2 j h)) :
    (∑ h : Fin 4096, A (ix2 r h) * B (ix2 j h)) = ∑ h : Fin 4096, A' (ix2 n h) * B' (ix2 j h) :=
  Finset.sum_congr rfl fun h _ => by rw [hA, hB]

/-- The region's three input arrays as functions into the extended reals. -/
abbrev aG (c : Dev nD) : S8192x4096.Idx → EReal := V c main_v61_0
abbrev aP (c : Dev nD) : S8192x4096.Idx → EReal := V c main_v61_1
abbrev aWd (c : Dev nD) : S4096x4096.Idx → EReal := V c main_v59

/-- The result of the whole array: logistic(sum_h g(n,h) * wd(j,h)) * p(n,j). -/
def O2 (c : Dev nD) : S8192x4096.Idx → EReal := fun i =>
  Ideal.logistic (∑ h : Fin 4096, aG V c (ix2 (⟨(i 0).val, (i 0).isLt⟩ : Fin 8192) h) * aWd V c (ix2 (⟨(i 1).val, (i 1).isLt⟩ : Fin 4096) h))
    * aP V c (ix2 (⟨(i 0).val, (i 0).isLt⟩ : Fin 8192) (⟨(i 1).val, (i 1).isLt⟩ : Fin 4096))

theorem flushed2_3_eq
    (ho : ∀ (g p : Vec Ideal S256x4096 .bf16) (wd : Vec Ideal S4096x4096 .bf16) (r : Fin 256) (j : Fin 4096),
      out2_3 (F := Ideal) g p wd (ix2 r j) = Ideal.logistic (∑ h : Fin 4096, g (ix2 r h) * wd (ix2 j h)) * p (ix2 r j))
    (c : Dev nD) (t : Fin cfg2.N) :
    (dat2 V c).flushed 3 t = ((cfg2.win 3).blk t).view.read (Elt Ideal) (O2 V c) := by
  show (cfg2.win 3).cut (grid2.coords t) ((dat2 V c).after 3 t) = _
  rw [after2_3]
  funext y
  obtain ⟨r, j, rfl⟩ : ∃ (r : Fin 256) (j : Fin 4096), y = ix2 r j := ⟨y 0, y 1, eq_ix2 y⟩
  show out2_3 (iblk2 V c 0 t) (iblk2 V c 1 t) (iblk2 V c 2 t) (ix2 r j) = O2 V c (((cfg2.win 3).blk t).view.emb (ix2 r j))
  refine (ho (iblk2 V c 0 t) (iblk2 V c 1 t) (iblk2 V c 2 t) r j).trans ?_
  obtain ⟨-, -, -, -, -, -, e6, e7⟩ := idx2 t
  have h0 : (⟨((((cfg2.win 3).blk t).view.emb (ix2 r j)) 0).val, ((((cfg2.win 3).blk t).view.emb (ix2 r j)) 0).isLt⟩ : Fin 8192)
      = ⟨t.val * 256 + r.val, by have := t_lt t; omega⟩ :=
    Fin.ext (show win2_3.index t (0 : Fin 2) * 256 + 1 * r.val = t.val * 256 + r.val by omega)
  have h1 : (⟨((((cfg2.win 3).blk t).view.emb (ix2 r j)) 1).val, ((((cfg2.win 3).blk t).view.emb (ix2 r j)) 1).isLt⟩ : Fin 4096) = j :=
    Fin.ext (show win2_3.index t (1 : Fin 2) * 4096 + 1 * j.val = j.val by omega)
  unfold O2
  rw [h0, h1, iblk2_1_at V c t r j,
    sum_blk (iblk2 V c 0 t) (iblk2 V c 2 t) (aG V c) (aWd V c) r j _ (iblk2_0_at V c t r) (iblk2_2_at V c t j)]

theorem mem_blk2_3 (t : Fin cfg2.N) (i : S8192x4096.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v62).slice (win2_3.rect t)).set ↔ _
  rw [View.set_slice_whole, Rect.mem_set_unit]
  exact Iff.rfl

/-- Row i0 lies in the block of point i0 / 256. -/
theorem covered2_3 (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 32 := N_2
  have ht : (i 0).val / 256 < cfg2.N := by rw [hN]; omega
  obtain ⟨-, -, -, -, -, -, e6, e7⟩ := idx2 ⟨(i 0).val / 256, ht⟩
  refine ⟨⟨(i 0).val / 256, ht⟩, flush2_3 _, ?_⟩
  rw [mem_blk2_3]
  intro a
  match a with
  | ⟨0, _⟩ =>
    show win2_3.index ⟨(i 0).val / 256, ht⟩ (0 : Fin 2) * 256 ≤ (i 0).val ∧ (i 0).val < win2_3.index ⟨(i 0).val / 256, ht⟩ (0 : Fin 2) * 256 + 256
    rw [e6]; show (i 0).val / 256 * 256 ≤ (i 0).val ∧ (i 0).val < (i 0).val / 256 * 256 + 256; omega
  | ⟨1, _⟩ =>
    show win2_3.index ⟨(i 0).val / 256, ht⟩ (1 : Fin 2) * 4096 ≤ (i 1).val ∧ (i 1).val < win2_3.index ⟨(i 0).val / 256, ht⟩ (1 : Fin 2) * 4096 + 4096
    rw [e7]; omega

/-- After the last region the result array holds the gated product of the arrays the region found. -/
theorem final2_3
    (ho : ∀ (g p : Vec Ideal S256x4096 .bf16) (wd : Vec Ideal S4096x4096 .bf16) (r : Fin 256) (j : Fin 4096),
      out2_3 (F := Ideal) g p wd (ix2 r j) = Ideal.logistic (∑ h : Fin 4096, g (ix2 r h) * wd (ix2 j h)) * p (ix2 r j))
    (c : Dev nD) : (dat2 V c).arrAt 3 cfg2.N = O2 V c :=
  (dat2 V c).arrAt_eq_of_cover 3 (O2 V c) (fun t _ => flushed2_3_eq V ho c t) covered2_3

end Cert.Glu.Blocks2

end
-- ==== Proof.HostW.lean ====
/-
  What the host operations before the first region leave in the three weight-mask buffers: for each weight matrix w,
  the 0/1 mask of the quantised weight's +1 entries minus the mask of its -1 entries. The quantisation chain
  (mean magnitude, clipped reciprocal, round, clip, divide) is the same line of operations in both programs, so it is
  named by the reference's stage functions and never opened.
-/
import proofs.«105572_j21706764714142_2_alg».proof.Proof.Gen.KernelIdeal.Frame
import proofs.«105572_j21706764714142_2_alg».proof.Proof.Gen.ReferenceIdeal.Read
import Idealize.ShloMosaic.Lib.StableHlo.Run

set_option maxRecDepth 16384

noncomputable section

namespace Cert.Glu.HostW

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The effective gate weight: mask of +1 minus mask of -1 of the quantised first weight. -/
def Mg (x1 : FVec Ideal S4096x2048 .f32) : FVec Ideal S4096x2048 .bf16 :=
  truncf .bf16 (subf (Cert.ReferenceIdeal.Read.val_main_v74 (F := Ideal) x1) (Cert.ReferenceIdeal.Read.val_main_v77 (F := Ideal) x1)) bitsLt_bf16_f32

/-- The effective up weight, of the second weight. -/
def Mu (x2 : FVec Ideal S4096x2048 .f32) : FVec Ideal S4096x2048 .bf16 :=
  truncf .bf16 (subf (Cert.ReferenceIdeal.Read.val_main_v85 (F := Ideal) x2) (Cert.ReferenceIdeal.Read.val_main_v88 (F := Ideal) x2)) bitsLt_bf16_f32

/-- The effective down weight, of the third weight. -/
def Md (x3 : FVec Ideal S4096x4096 .f32) : FVec Ideal S4096x4096 .bf16 :=
  truncf .bf16 (subf (Cert.ReferenceIdeal.Read.val_main_v96 (F := Ideal) x3) (Cert.ReferenceIdeal.Read.val_main_v99 (F := Ideal) x3)) bitsLt_bf16_f32

set_option maxHeartbeats 4000000 in
/-- The gate-weight buffer when the first region is entered. -/
theorem W19_v19 (c : Dev nD) :
    W19 m ρ c (Proc.devRef .tc main_v19) = Mg (m ((c.tc : Thread nD τ).loc main_arg1)) := by
  show StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))))))))) (Proc.devRef .tc main_v19) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  rfl

set_option maxHeartbeats 4000000 in
/-- The up-weight buffer when the first region is entered. -/
theorem W19_v39 (c : Dev nD) :
    W19 m ρ c (Proc.devRef .tc main_v39) = Mu (m ((c.tc : Thread nD τ).loc main_arg2)) := by
  show StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))))))))) (Proc.devRef .tc main_v39) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  rfl

set_option maxHeartbeats 4000000 in
/-- The down-weight buffer when the first region is entered. -/
theorem W19_v59 (c : Dev nD) :
    W19 m ρ c (Proc.devRef .tc main_v59) = Md (m ((c.tc : Thread nD τ).loc main_arg3)) := by
  show StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))))))))) (Proc.devRef .tc main_v59) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  rfl

set_option maxHeartbeats 4000000 in
/-- No host operation writes the input: it is as launched when the first region is entered. -/
theorem W19_arg0 (c : Dev nD) :
    W19 m ρ c (Proc.devRef .tc main_arg0) = m ((c.tc : Thread nD τ).loc main_arg0) := by
  show StableHlo.after hostOps0_18 (StableHlo.after hostOps0_17 (StableHlo.after hostOps0_16 (StableHlo.after hostOps0_15 (StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))))))))) (Proc.devRef .tc main_arg0) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp

/-! ## The buffers each region finds -/

/-- Region 1 finds the levels and scales region 0 left, and the two weights as the host left them. -/
theorem V20_q (c : Dev nD) : V20 m ρ c main_v60_0 = (dat0 (V19 m ρ) c).arrAt 1 cfg0.N := W20_arr m ρ c 1
theorem V20_s (c : Dev nD) : V20 m ρ c main_v60_1 = (dat0 (V19 m ρ) c).arrAt 2 cfg0.N := W20_arr m ρ c 2
theorem V20_wg (c : Dev nD) : V20 m ρ c main_v19 = Mg (m ((c.tc : Thread nD τ).loc main_arg1)) :=
  (W20_of_ne m ρ c main_v19 (by decide)).trans (W19_v19 m ρ c)
theorem V20_wu (c : Dev nD) : V20 m ρ c main_v39 = Mu (m ((c.tc : Thread nD τ).loc main_arg2)) :=
  (W20_of_ne m ρ c main_v39 (by decide)).trans (W19_v39 m ρ c)

/-- Region 2 finds the two arrays region 1 left and the third weight as the host left it. -/
theorem V21_g (c : Dev nD) : V21 m ρ c main_v61_0 = (dat1 (V20 m ρ) c).arrAt 4 cfg1.N := W21_arr m ρ c 4
theorem V21_p (c : Dev nD) : V21 m ρ c main_v61_1 = (dat1 (V20 m ρ) c).arrAt 5 cfg1.N := W21_arr m ρ c 5
theorem V21_wd (c : Dev nD) : V21 m ρ c main_v59 = Md (m ((c.tc : Thread nD τ).loc main_arg3)) :=
  ((W21_of_ne m ρ c main_v59 (by decide)).trans (W20_of_ne m ρ c main_v59 (by decide))).trans (W19_v59 m ρ c)

/-- The result buffer after the last region. -/
theorem W22_out (c : Dev nD) : W22 m ρ c (Proc.devRef .tc main_v62) = (dat2 (V21 m ρ) c).arrAt 3 cfg2.N := W22_arr m ρ c 3

end Cert.Glu.HostW

end
-- ==== Proof.KValue.lean ====
/-
  The kernel program's result as one function of the four argument arrays: through the three regions and the host
  operations before them, entry (n, j) of the result is the gated product Out of Spec.lean of row n of the input,
  the three effective weights (mask of +1 minus mask of -1 of each quantised weight) and column index j.
-/
import proofs.«105572_j21706764714142_2_alg».proof.Proof.Gen.KernelIdeal.Frame
import proofs.«105572_j21706764714142_2_alg».proof.Proof.Spec
import proofs.«105572_j21706764714142_2_alg».proof.Proof.Body0
import proofs.«105572_j21706764714142_2_alg».proof.Proof.Body12
import proofs.«105572_j21706764714142_2_alg».proof.Proof.Blocks0
import proofs.«105572_j21706764714142_2_alg».proof.Proof.Blocks1
import proofs.«105572_j21706764714142_2_alg».proof.Proof.Blocks2
import proofs.«105572_j21706764714142_2_alg».proof.Proof.HostW

set_option maxRecDepth 16384

noncomputable section

open scoped BigOperators

namespace Cert.Glu.KValue

open Idealize.ShloMosaic Idealize.ShloMosaic.TcCoe Idealize.ShloMosaic.ValueIdx Idealize.SL.Sem
open Cert.KernelIdeal Cert.KernelIdeal.Gen Cert.Glu.HostW

variable (m : (ℓ : Loc nD τ sig) → Buf (Elt Ideal) ℓ) (ρ : Dev nD → PrngReg)

/-- The kernel's result as a function of the four argument arrays. -/
def KOut (x0 : FVec Ideal S8192x2048 .f32) (x1 x2 : FVec Ideal S4096x2048 .f32) (x3 : FVec Ideal S4096x4096 .f32) :
    S8192x4096.Idx → EReal := fun i =>
  Out (fun n k => x0 (ix2 n k)) (fun h k => Mg x1 (ix2 h k)) (fun h k => Mu x2 (ix2 h k)) (fun j h => Md x3 (ix2 j h))
    (⟨(i 0).val, (i 0).isLt⟩ : Fin 8192) (⟨(i 1).val, (i 1).isLt⟩ : Fin 4096)

theorem kernel_value (c : Dev nD) :
    W22 m ρ c (Proc.devRef .tc main_v62)
      = KOut (m ((c.tc : Thread nD τ).loc main_arg0)) (m ((c.tc : Thread nD τ).loc main_arg1))
          (m ((c.tc : Thread nD τ).loc main_arg2)) (m ((c.tc : Thread nD τ).loc main_arg3)) := by
  rw [W22_out, Blocks2.final2_3 (V21 m ρ) Body12.out2_3_at c]
  have eG : Blocks2.aG (V21 m ρ) c = Blocks1.G1 (V20 m ρ) c :=
    (V21_g m ρ c).trans (Blocks1.final1_4 (V20 m ρ) Body12.out1_4_at c)
  have eP : Blocks2.aP (V21 m ρ) c = Blocks1.P1 (V20 m ρ) c :=
    (V21_p m ρ c).trans (Blocks1.final1_5 (V20 m ρ) Body12.out1_5_at c)
  have eWd : Blocks2.aWd (V21 m ρ) c = Md (m ((c.tc : Thread nD τ).loc main_arg3)) := V21_wd m ρ c
  have eQ : Blocks1.aQ (V20 m ρ) c = Blocks0.Q0 (V19 m ρ) c :=
    (V20_q m ρ c).trans (Blocks0.final0_1 (V19 m ρ) Body0.out0_1_at c)
  have eS : Blocks1.aS (V20 m ρ) c = Blocks0.IS0 (V19 m ρ) c :=
    (V20_s m ρ c).trans (Blocks0.final0_2 (V19 m ρ) Body0.out0_2_at c)
  have eWg : Blocks1.aWg (V20 m ρ) c = Mg (m ((c.tc : Thread nD τ).loc main_arg1)) := V20_wg m ρ c
  have eWu : Blocks1.aWu (V20 m ρ) c = Mu (m ((c.tc : Thread nD τ).loc main_arg2)) := V20_wu m ρ c
  have eX : (V19 m ρ c main_arg0 : S8192x2048.Idx → EReal) = m ((c.tc : Thread nD τ).loc main_arg0) := W19_arg0 m ρ c
  funext i
  unfold Blocks2.O2
  rw [eG, eP, eWd]
  unfold Blocks1.P1 Blocks1.G1
  rw [eQ, eS, eWg, eWu]
  unfold Blocks0.Q0 Blocks0.IS0
  rw [eX]
  rfl

end Cert.Glu.KValue

end
-- ==== Proof.RefRead.lean ====
/-
  The reference program's result read at an index.

  Each stage of the reference is read at explicit coordinates (n, k): the row mean, the centred row, its mean square, the
  clamped inverse deviation, the normalised row, the row's largest magnitude, the quantisation scale, the clipped rounded
  level and the de-quantised level q / s. The six products are then finite sums over the contracted coordinate, the three
  differences are the linear forms of the specification, and the two gates are 1 / (1 + exp(-y)).
-/
import proofs.«105572_j21706764714142_2_alg».proof.Proof.Gen.ReferenceIdeal.Read
import proofs.«105572_j21706764714142_2_alg».proof.Proof.Spec
import proofs.«105572_j21706764714142_2_alg».proof.Proof.LibRowAbsMax
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.Glu.RefRead

open Idealize.ShloMosaic Idealize.ShloMosaic.ValueIdx Cert.ReferenceIdeal Cert.ReferenceIdeal.Gen

/-- Two indices of a rank-2 shape with equal coordinates are equal. -/
local macro "idx2" : tactic =>
  `(tactic| exact funext fun a => Fin.ext (by match a with | ⟨0, _⟩ => rfl | ⟨1, _⟩ => rfl))
/-- Two indices of a rank-1 shape with equal coordinates are equal. -/
local macro "idx1" : tactic =>
  `(tactic| exact funext fun a => Fin.ext (by match a with | ⟨0, _⟩ => rfl))

/-! ## The row statistics -/

section Row

variable (x0 : (⟨S8192x2048, .f32⟩ : BufTy).Contents (Elt Ideal))

/-- The row mean at (n, 0). -/
theorem v3_at (n : Fin 8192) :
    Read.val_main_v3 (F := Ideal) x0 (ix2 n 0) = Cert.Glu.mean (fun k => x0 (ix2 n k)) := by
  rw [Read.val_main_v3_apply, Read.val_main_v1_apply, Read.val_main_v0_apply, Read.val_main_v2_apply,
    Read.val_main_cst_0_apply, Read.val_main_cst_apply]
  simp only [Ideal.hostDivf_def, Ideal.ofBits_def, Ideal.ofBits_zero_f32, zero_add]
  unfold Cert.Glu.mean
  refine congrArg (Ideal.div · _) (Finset.sum_congr rfl fun k _ => congrArg x0 ?_)
  idx2

/-- The centred row at (n, k), first spelling. -/
theorem v5_at (n : Fin 8192) (k : Fin 2048) :
    Read.val_main_v5 (F := Ideal) x0 (ix2 n k) = Cert.Glu.cen (fun k => x0 (ix2 n k)) k := by
  rw [Read.val_main_v5_apply, Read.val_main_v4_apply,
    show Read.idx_main_v4 (ix2 n k) = ix2 n 0 from by idx2, v3_at]
  rfl

/-- The centred row at (n, k), second spelling. -/
theorem v19_at (n : Fin 8192) (k : Fin 2048) :
    Read.val_main_v19 (F := Ideal) x0 (ix2 n k) = Cert.Glu.cen (fun k => x0 (ix2 n k)) k := by
  rw [Read.val_main_v19_apply, Read.val_main_v18_apply,
    show Read.idx_main_v18 (ix2 n k) = ix2 n 0 from by idx2, v3_at]
  rfl

/-- The mean square of the centred row at (n, 0). -/
theorem v10_at (n : Fin 8192) :
    Read.val_main_v10 (F := Ideal) x0 (ix2 n 0) = Cert.Glu.var (fun k => x0 (ix2 n k)) := by
  rw [Read.val_main_v10_apply, Read.val_main_v8_apply, Read.val_main_v7_apply, Read.val_main_v9_apply,
    Read.val_main_cst_2_apply, Read.val_main_cst_1_apply]
  simp only [Ideal.hostDivf_def, Ideal.ofBits_def, Ideal.ofBits_zero_f32, zero_add]
  unfold Cert.Glu.var
  refine congrArg (Ideal.div · _) (Finset.sum_congr rfl fun k _ => ?_)
  rw [show Read.idx_main_v7 (Read.idx_main_v8 (ix2 n 0)) k = ix2 n k from by idx2, Read.val_main_v6_apply, v5_at]
  rfl

/-- The clamped inverse deviation at (n, 0). -/
theorem v17_at (n : Fin 8192) :
    Read.val_main_v17 (F := Ideal) x0 (ix2 n 0) = Cert.Glu.rinv (fun k => x0 (ix2 n k)) := by
  rw [Read.val_main_v17_apply, Read.val_main_v15_apply, Read.val_main_v14_apply, Read.val_main_cst_4_apply,
    Read.val_main_v13_apply, Read.val_main_v12_apply, v10_at, Read.val_main_v11_apply, Read.val_main_cst_3_apply,
    Read.val_main_v16_apply, Read.val_main_cst_5_apply]
  rfl

/-- The normalised row at (n, k). -/
theorem v21_at (n : Fin 8192) (k : Fin 2048) :
    Read.val_main_v21 (F := Ideal) x0 (ix2 n k) = Cert.Glu.xn (fun k => x0 (ix2 n k)) k := by
  rw [Read.val_main_v21_apply, Read.val_main_v20_apply,
    show Read.idx_main_v20 (ix2 n k) = ix2 n 0 from by idx2, v17_at, v19_at]
  rfl

/-- The row's largest magnitude at n. -/
theorem v23_at (n : Fin 8192) :
    Read.val_main_v23 (F := Ideal) x0 (ix1 n) = RowAbsMax.rowAbsMax (Cert.Glu.xn (fun k => x0 (ix2 n k))) := by
  unfold Read.val_main_v23 Read.val_main_v22 Read.val_main_cst_6
  refine (RowAbsMax.rowmax_host (Read.val_main_v21 (F := Ideal) x0) reducesTo_S8192x2048_S8192_d1 (by decide) h_S_ n).trans ?_
  exact congrArg RowAbsMax.rowAbsMax (funext fun k => v21_at x0 n k)

/-- The quantisation scale at (n, 0). -/
theorem v29_at (n : Fin 8192) :
    Read.val_main_v29 (F := Ideal) x0 (ix2 n 0) = Cert.Glu.scale (fun k => x0 (ix2 n k)) := by
  rw [Read.val_main_v29_apply, Read.val_main_call0_v4_apply, Read.val_main_call0_v3_apply, Read.val_main_cst_10_apply,
    Read.val_main_call0_v2_apply, Read.val_main_call0_v1_apply, Read.val_main_call0_v0_apply, Read.val_main_cst_9_apply,
    Read.val_main_v28_apply, Read.val_main_v27_apply, Read.val_main_cst_8_apply, Read.val_main_v26_apply,
    Read.val_main_v24_apply, show Read.idx_main_v24 (ix2 n 0) = ix1 n from by idx1, v23_at,
    Read.val_main_v25_apply, Read.val_main_cst_7_apply]
  rfl

/-- The clipped rounded level at (n, k). -/
theorem v33_at (n : Fin 8192) (k : Fin 2048) :
    Read.val_main_v33 (F := Ideal) x0 (ix2 n k) = Cert.Glu.qv (fun k => x0 (ix2 n k)) k := by
  rw [Read.val_main_v33_apply, Read.val_main_call2_v4_apply, Read.val_main_call2_v3_apply, Read.val_main_cst_12_apply,
    Read.val_main_call2_v2_apply, Read.val_main_call2_v1_apply, Read.val_main_call2_v0_apply, Read.val_main_cst_11_apply,
    Read.val_main_v32_apply, Read.val_main_v31_apply, Read.val_main_v30_apply,
    show Read.idx_main_v30 (ix2 n k) = ix2 n 0 from by idx2, v29_at, v21_at]
  rfl

/-- The de-quantised level at (n, k). -/
theorem v35_at (n : Fin 8192) (k : Fin 2048) :
    Read.val_main_v35 (F := Ideal) x0 (ix2 n k) = Cert.Glu.xq (fun k => x0 (ix2 n k)) k := by
  rw [Read.val_main_v35_apply, v33_at, Read.val_main_v34_apply,
    show Read.idx_main_v34 (ix2 n k) = ix2 n 0 from by idx2, v29_at]
  rfl

end Row

/-! ## The products, their differences and the gates -/

section Products

variable (x0 : (⟨S8192x2048, .f32⟩ : BufTy).Contents (Elt Ideal))
  (x1 x2 : (⟨S4096x2048, .f32⟩ : BufTy).Contents (Elt Ideal))
  (x3 : (⟨S4096x4096, .f32⟩ : BufTy).Contents (Elt Ideal))

theorem v79_at (n : Fin 8192) (h : Fin 4096) :
    Read.val_main_v79 (F := Ideal) x0 x1 (ix2 n h)
      = ∑ k : Fin 2048, Cert.Glu.xq (fun k => x0 (ix2 n k)) k * Read.val_main_v74 (F := Ideal) x1 (ix2 h k) := by
  rw [Read.val_main_v79_apply]
  refine Finset.sum_congr rfl fun k _ => ?_
  rw [show Read.lidx_main_v79 (ix2 n h) k = ix2 n k from by idx2, v35_at, Read.val_main_v78_apply,
    show Read.idx_main_v78 (Read.ridx_main_v79 (ix2 n h) k) = ix2 h k from by idx2]

theorem v81_at (n : Fin 8192) (h : Fin 4096) :
    Read.val_main_v81 (F := Ideal) x0 x1 (ix2 n h)
      = ∑ k : Fin 2048, Cert.Glu.xq (fun k => x0 (ix2 n k)) k * Read.val_main_v77 (F := Ideal) x1 (ix2 h k) := by
  rw [Read.val_main_v81_apply]
  refine Finset.sum_congr rfl fun k _ => ?_
  rw [show Read.lidx_main_v81 (ix2 n h) k = ix2 n k from by idx2, v35_at, Read.val_main_v80_apply,
    show Read.idx_main_v80 (Read.ridx_main_v81 (ix2 n h) k) = ix2 h k from by idx2]

/-- The gate projection at (n, h). -/
theorem v82_at (n : Fin 8192) (h : Fin 4096) :
    Read.val_main_v82 (F := Ideal) x0 x1 (ix2 n h)
      = Cert.Glu.Gr (fun n k => x0 (ix2 n k)) (fun h k => Read.val_main_v74 (F := Ideal) x1 (ix2 h k))
          (fun h k => Read.val_main_v77 (F := Ideal) x1 (ix2 h k)) n h := by
  rw [Read.val_main_v82_apply, v79_at, v81_at]
  rfl

theorem v90_at (n : Fin 8192) (h : Fin 4096) :
    Read.val_main_v90 (F := Ideal) x0 x2 (ix2 n h)
      = ∑ k : Fin 2048, Cert.Glu.xq (fun k => x0 (ix2 n k)) k * Read.val_main_v85 (F := Ideal) x2 (ix2 h k) := by
  rw [Read.val_main_v90_apply]
  refine Finset.sum_congr rfl fun k _ => ?_
  rw [show Read.lidx_main_v90 (ix2 n h) k = ix2 n k from by idx2, v35_at, Read.val_main_v89_apply,
    show Read.idx_main_v89 (Read.ridx_main_v90 (ix2 n h) k) = ix2 h k from by idx2]

theorem v92_at (n : Fin 8192) (h : Fin 4096) :
    Read.val_main_v92 (F := Ideal) x0 x2 (ix2 n h)
      = ∑ k : Fin 2048, Cert.Glu.xq (fun k => x0 (ix2 n k)) k * Read.val_main_v88 (F := Ideal) x2 (ix2 h k) := by
  rw [Read.val_main_v92_apply]
  refine Finset.sum_congr rfl fun k _ => ?_
  rw [show Read.lidx_main_v92 (ix2 n h) k = ix2 n k from by idx2, v35_at, Read.val_main_v91_apply,
    show Read.idx_main_v91 (Read.ridx_main_v92 (ix2 n h) k) = ix2 h k from by idx2]

/-- The up projection at (n, h). -/
theorem v93_at (n : Fin 8192) (h : Fin 4096) :
    Read.val_main_v93 (F := Ideal) x0 x2 (ix2 n h)
      = Cert.Glu.Gr (fun n k => x0 (ix2 n k)) (fun h k => Read.val_main_v85 (F := Ideal) x2 (ix2 h k))
          (fun h k => Read.val_main_v88 (F := Ideal) x2 (ix2 h k)) n h := by
  rw [Read.val_main_v93_apply, v90_at, v92_at]
  rfl

theorem v101_at (n : Fin 8192) (j : Fin 4096) :
    Read.val_main_v101 (F := Ideal) x0 x1 x3 (ix2 n j)
      = ∑ h : Fin 4096, Cert.Glu.Gr (fun n k => x0 (ix2 n k)) (fun h k => Read.val_main_v74 (F := Ideal) x1 (ix2 h k))
          (fun h k => Read.val_main_v77 (F := Ideal) x1 (ix2 h k)) n h * Read.val_main_v96 (F := Ideal) x3 (ix2 j h) := by
  rw [Read.val_main_v101_apply]
  refine Finset.sum_congr rfl fun h _ => ?_
  rw [show Read.lidx_main_v101 (ix2 n j) h = ix2 n h from by idx2, v82_at, Read.val_main_v100_apply,
    show Read.idx_main_v100 (Read.ridx_main_v101 (ix2 n j) h) = ix2 j h from by idx2]

theorem v103_at (n : Fin 8192) (j : Fin 4096) :
    Read.val_main_v103 (F := Ideal) x0 x1 x3 (ix2 n j)
      = ∑ h : Fin 4096, Cert.Glu.Gr (fun n k => x0 (ix2 n k)) (fun h k => Read.val_main_v74 (F := Ideal) x1 (ix2 h k))
          (fun h k => Read.val_main_v77 (F := Ideal) x1 (ix2 h k)) n h * Read.val_main_v99 (F := Ideal) x3 (ix2 j h) := by
  rw [Read.val_main_v103_apply]
  refine Finset.sum_congr rfl fun h _ => ?_
  rw [show Read.lidx_main_v103 (ix2 n j) h = ix2 n h from by idx2, v82_at, Read.val_main_v102_apply,
    show Read.idx_main_v102 (Read.ridx_main_v103 (ix2 n j) h) = ix2 j h from by idx2]

/-- The down projection at (n, j). -/
theorem v104_at (n : Fin 8192) (j : Fin 4096) :
    Read.val_main_v104 (F := Ideal) x0 x1 x3 (ix2 n j)
      = Cert.Glu.lin (Cert.Glu.Gr (fun n k => x0 (ix2 n k)) (fun h k => Read.val_main_v74 (F := Ideal) x1 (ix2 h k))
          (fun h k => Read.val_main_v77 (F := Ideal) x1 (ix2 h k)) n)
          (fun h => Read.val_main_v96 (F := Ideal) x3 (ix2 j h)) (fun h => Read.val_main_v99 (F := Ideal) x3 (ix2 j h)) := by
  rw [Read.val_main_v104_apply, v101_at, v103_at]
  rfl

/-- The gate of the gate projection at (n, h). -/
theorem v110_at (n : Fin 8192) (h : Fin 4096) :
    Read.val_main_v110 (F := Ideal) x0 x1 (ix2 n h)
      = Cert.Glu.sigr (Cert.Glu.Gr (fun n k => x0 (ix2 n k)) (fun h k => Read.val_main_v74 (F := Ideal) x1 (ix2 h k))
          (fun h k => Read.val_main_v77 (F := Ideal) x1 (ix2 h k)) n h) := by
  rw [Read.val_main_v110_apply, Read.val_main_v109_apply, Read.val_main_cst_44_apply, Read.val_main_v108_apply,
    Read.val_main_v107_apply, Read.val_main_cst_43_apply, Read.val_main_v106_apply, Read.val_main_v105_apply, v82_at]
  rfl

/-- The gate of the down projection at (n, j). -/
theorem v117_at (n : Fin 8192) (j : Fin 4096) :
    Read.val_main_v117 (F := Ideal) x0 x1 x3 (ix2 n j)
      = Cert.Glu.sigr (Cert.Glu.lin (Cert.Glu.Gr (fun n k => x0 (ix2 n k)) (fun h k => Read.val_main_v74 (F := Ideal) x1 (ix2 h k))
          (fun h k => Read.val_main_v77 (F := Ideal) x1 (ix2 h k)) n)
          (fun h => Read.val_main_v96 (F := Ideal) x3 (ix2 j h)) (fun h => Read.val_main_v99 (F := Ideal) x3 (ix2 j h))) := by
  rw [Read.val_main_v117_apply, Read.val_main_v116_apply, Read.val_main_cst_46_apply, Read.val_main_v115_apply,
    Read.val_main_v114_apply, Read.val_main_cst_45_apply, Read.val_main_v113_apply, Read.val_main_v112_apply, v104_at]
  rfl

end Products

/-- The reference's result at (n, j) is the specification's arrangement of the reference. -/
theorem ref_at (x0 : (⟨Cert.ReferenceIdeal.S8192x2048, .f32⟩ : BufTy).Contents (Elt Ideal))
    (x1 x2 : (⟨Cert.ReferenceIdeal.S4096x2048, .f32⟩ : BufTy).Contents (Elt Ideal))
    (x3 : (⟨Cert.ReferenceIdeal.S4096x4096, .f32⟩ : BufTy).Contents (Elt Ideal)) (n : Fin 8192) (j : Fin 4096) :
    Read.val_main_v118 (F := Ideal) x0 x1 x2 x3 (ix2 n j)
      = Cert.Glu.ROut (fun n k => x0 (ix2 n k))
          (fun h k => Read.val_main_v74 (F := Ideal) x1 (ix2 h k)) (fun h k => Read.val_main_v77 (F := Ideal) x1 (ix2 h k))
          (fun h k => Read.val_main_v85 (F := Ideal) x2 (ix2 h k)) (fun h k => Read.val_main_v88 (F := Ideal) x2 (ix2 h k))
          (fun h k => Read.val_main_v96 (F := Ideal) x3 (ix2 h k)) (fun h k => Read.val_main_v99 (F := Ideal) x3 (ix2 h k)) n j := by
  rw [Read.val_main_v118_apply, v117_at, Read.val_main_v111_apply, v110_at, v93_at]
  rfl

end Cert.Glu.RefRead

end
-- ==== Proof.Algebra.lean ====
/-
  The law joining the two arrangements of the specification.

  The quantised level q_k = min(127, max(-128, ·)) lies between two reals whatever it is applied to, so it is a real number;
  the scale s = min(1000, max(0.001, ·)) likewise, and it is positive. For real q_k, real s ≠ 0 and real 0/1 masks P, N:
    sum_k (q_k / s) P_k - sum_k (q_k / s) N_k = (sum_k q_k (P_k - N_k)) * (1 / s),
  and for real g_h:  sum_h g_h P_h - sum_h g_h N_h = sum_h g_h (P_h - N_h).
  Both are distributivity over finite sums of reals. The reference's gate 1 / (1 + exp(-y)) is the logistic function.
-/
import proofs.«105572_j21706764714142_2_alg».proof.Proof.Spec
import Idealize.ShloMosaic.PureOps.Ideal.Laws
import Idealize.ShloMosaic.Lib.IdealHost

noncomputable section

open scoped BigOperators

namespace Cert.Glu.Algebra

open Idealize.ShloMosaic

/-! ## The literals -/

theorem lit_127 : lit 0x42FE0000#32 = ((127 : ℝ) : EReal) := by
  simp [lit, Ideal.ofBits, Ideal.ieee, -EReal.coe_mul]; norm_num

theorem lit_neg128 : lit 0xC3000000#32 = ((-128 : ℝ) : EReal) := by
  simp [lit, Ideal.ofBits, Ideal.ieee, -EReal.coe_mul, -EReal.coe_neg]; norm_num

theorem lit_1000 : lit 0x447A0000#32 = ((1000 : ℝ) : EReal) := by
  simp [lit, Ideal.ofBits, Ideal.ieee, -EReal.coe_mul]; norm_num

theorem lit_milli : ∃ r : ℝ, 0 < r ∧ r ≤ 1000 ∧ lit 0x3A83126F#32 = (r : EReal) := by
  refine ⟨8589935 * (2 : ℝ) ^ (-33 : ℤ), by positivity, ?_, ?_⟩
  · norm_num
  · simp [lit, Ideal.ofBits, Ideal.ieee, -EReal.coe_mul]

theorem lit_one : lit 0x3F800000#32 = 1 := Ideal.ofBits_one_f32

/-! ## Real values -/

/-- An extended real that is a real number. -/
def IsReal (y : EReal) : Prop := ∃ r : ℝ, y = (r : EReal)

theorem IsReal.coe (r : ℝ) : IsReal (r : EReal) := ⟨r, rfl⟩

theorem IsReal.zero : IsReal 0 := ⟨0, by norm_cast⟩

theorem IsReal.one : IsReal 1 := ⟨1, by norm_cast⟩

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.sub {a b : EReal} (ha : IsReal a) (hb : IsReal b) : IsReal (a - b) := by
  obtain ⟨r, rfl⟩ := ha
  obtain ⟨t, rfl⟩ := hb
  exact ⟨r - t, (EReal.coe_sub r t).symm⟩

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.sum {ι : Type*} (s : Finset ι) (f : ι → EReal) (h : ∀ i, IsReal (f i)) : IsReal (∑ i ∈ s, f i) :=
  Finset.sum_induction f IsReal (fun _ _ => IsReal.add) IsReal.zero (fun i _ => h i)

/-- An extended real between two reals is a real. -/
theorem IsReal.of_between {z : EReal} {a b : ℝ} (h1 : (b : EReal) ≤ z) (h2 : z ≤ (a : EReal)) : IsReal z :=
  ⟨z.toReal, (EReal.coe_toReal (ne_top_of_le_ne_top (EReal.coe_ne_top a) h2)
    (ne_bot_of_le_ne_bot (EReal.coe_ne_bot b) h1)).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem exists_real_family {ι : Type*} (f : ι → EReal) (h : ∀ i, IsReal (f i)) : ∃ g : ι → ℝ, f = fun i => (g i : EReal) :=
  ⟨fun i => (h i).choose, funext fun i => (h i).choose_spec⟩

/-! ## The quantised level and the scale are real -/

/-- A 0/1-valued array. -/
def IsMask {H K : ℕ} (P : Fin H → Fin K → EReal) : Prop := ∀ h k, P h k = 0 ∨ P h k = 1

theorem IsMask.isReal {H K : ℕ} {P : Fin H → Fin K → EReal} (hP : IsMask P) (h : Fin H) (k : Fin K) : IsReal (P h k) := by
  rcases hP h k with e | e <;> rw [e]
  · exact IsReal.zero
  · exact IsReal.one

/-- The conversion of one bit to a float is 0 or 1. -/
theorem uitofp_mask (b : BitVec 1) :
    (FloatOps.uitofp (F := Ideal) .f32 b : EReal) = 0 ∨ (FloatOps.uitofp (F := Ideal) .f32 b : EReal) = 1 := by
  have hb : b = 0#1 ∨ b = 1#1 := by revert b; decide
  rcases hb with rfl | rfl
  · left
    show (((0#1 : BitVec 1).toNat : ℝ) : EReal) = 0
    simp
  · right
    show (((1#1 : BitVec 1).toNat : ℝ) : EReal) = 1
    simp

/-- The quantised level is a real number. -/
theorem qv_isReal (x : Fin 2048 → EReal) (k : Fin 2048) : IsReal (qv x k) := by
  unfold qv
  rw [lit_127, lit_neg128]
  exact IsReal.of_between (a := 127) (b := -128)
    (le_min (EReal.coe_le_coe_iff.mpr (by norm_num)) (le_max_left _ _)) (min_le_left _ _)

/-- The scale is a nonzero real number. -/
theorem scale_real (x : Fin 2048 → EReal) : ∃ s : ℝ, s ≠ 0 ∧ scale x = (s : EReal) := by
  obtain ⟨m, hm0, hm1, hm⟩ := lit_milli
  have h1 : (m : EReal) ≤ scale x := by
    unfold scale
    rw [lit_1000, hm]
    exact le_min (EReal.coe_le_coe_iff.mpr hm1) (le_max_left _ _)
  have h2 : scale x ≤ ((1000 : ℝ) : EReal) := by
    unfold scale
    rw [lit_1000]
    exact min_le_left _ _
  obtain ⟨s, hs⟩ := IsReal.of_between h1 h2
  refine ⟨s, ?_, hs⟩
  rw [hs] at h1
  exact ne_of_gt (lt_of_lt_of_le hm0 (EReal.coe_le_coe_iff.mp h1))

/-! ## The two linear laws -/

/-- sum_k (a_k / s) P_k - sum_k (a_k / s) N_k = (sum_k a_k (P_k - N_k)) * (1 / s) for reals and s ≠ 0. -/
theorem lin_div {K : ℕ} (a P N : Fin K → EReal) (s : ℝ) (hs : s ≠ 0) (ha : ∀ k, IsReal (a k)) (hP : ∀ k, IsReal (P k))
    (hN : ∀ k, IsReal (N k)) :
    lin (fun k => Ideal.div (a k) (s : EReal)) P N
      = (∑ k, a k * (P k - N k)) * Ideal.div (lit 0x3F800000#32) (s : EReal) := by
  obtain ⟨a', rfl⟩ := exists_real_family a ha
  obtain ⟨P', rfl⟩ := exists_real_family P hP
  obtain ⟨N', rfl⟩ := exists_real_family N hN
  unfold lin
  simp only [Ideal.div_coe hs, lit_one]
  have e1 : ∀ k, ((a' k : EReal) * ((1 / s : ℝ) : EReal)) * (P' k : EReal) = ((a' k * (1 / s) * P' k : ℝ) : EReal) := fun k => by
    rw [EReal.coe_mul, EReal.coe_mul]
  have e2 : ∀ k, ((a' k : EReal) * ((1 / s : ℝ) : EReal)) * (N' k : EReal) = ((a' k * (1 / s) * N' k : ℝ) : EReal) := fun k => by
    rw [EReal.coe_mul, EReal.coe_mul]
  have e3 : ∀ k, (a' k : EReal) * ((P' k : EReal) - (N' k : EReal)) = ((a' k * (P' k - N' k) : ℝ) : EReal) := fun k => by
    rw [EReal.coe_mul, EReal.coe_sub]
  simp only [e1, e2, e3, ← coe_sum]
  rw [show (1 : EReal) = ((1 : ℝ) : EReal) from by norm_cast, ← EReal.coe_mul, ← EReal.coe_mul, ← EReal.coe_sub]
  refine congrArg _ ?_
  rw [Finset.sum_mul, ← Finset.sum_sub_distrib]
  refine Finset.sum_congr rfl fun k _ => ?_
  ring

/-- sum_h g_h P_h - sum_h g_h N_h = sum_h g_h (P_h - N_h) for reals. -/
theorem lin_sub {K : ℕ} (g P N : Fin K → EReal) (hg : ∀ k, IsReal (g k)) (hP : ∀ k, IsReal (P k)) (hN : ∀ k, IsReal (N k)) :
    lin g P N = ∑ k, g k * (P k - N k) := by
  obtain ⟨g', rfl⟩ := exists_real_family g hg
  obtain ⟨P', rfl⟩ := exists_real_family P hP
  obtain ⟨N', rfl⟩ := exists_real_family N hN
  unfold lin
  have e1 : ∀ k, (g' k : EReal) * (P' k : EReal) = ((g' k * P' k : ℝ) : EReal) := fun k => by rw [EReal.coe_mul]
  have e2 : ∀ k, (g' k : EReal) * (N' k : EReal) = ((g' k * N' k : ℝ) : EReal) := fun k => by rw [EReal.coe_mul]
  have e3 : ∀ k, (g' k : EReal) * ((P' k : EReal) - (N' k : EReal)) = ((g' k * (P' k - N' k) : ℝ) : EReal) := fun k => by
    rw [EReal.coe_mul, EReal.coe_sub]
  simp only [e1, e2, e3, ← coe_sum]
  rw [← EReal.coe_sub]
  refine congrArg _ ?_
  rw [← Finset.sum_sub_distrib]
  refine Finset.sum_congr rfl fun k _ => ?_
  ring

/-! ## The gate -/

/-- The reference's spelling of the gate is the logistic function. -/
theorem sigr_eq_logistic (y : EReal) : sigr y = Ideal.logistic y := by
  unfold sigr Ideal.logistic
  rw [lit_one]

/-! ## The two arrangements agree -/

section Assembly

variable (x : Fin 8192 → Fin 2048 → EReal)

/-- The reference's projection is the kernel's, for 0/1 masks. -/
theorem Gr_eq_G {H : ℕ} (P N : Fin H → Fin 2048 → EReal) (hP : IsMask P) (hN : IsMask N) (n : Fin 8192) (h : Fin H) :
    lin (xq (x n)) (P h) (N h) = gRow (x n) (fun k => P h k - N h k) := by
  obtain ⟨s, hs0, hs⟩ := scale_real (x n)
  have e : xq (x n) = fun k => Ideal.div (qv (x n) k) (s : EReal) := funext fun k => by unfold xq; rw [hs]
  rw [e, lin_div (fun k => qv (x n) k) (P h) (N h) s hs0 (qv_isReal (x n)) (hP.isReal h) (hN.isReal h)]
  unfold gRow invs
  rw [hs]

/-- The kernel's projection is a real number, for a real weight row. -/
theorem gRow_isReal (xr w : Fin 2048 → EReal) (hw : ∀ k, IsReal (w k)) : IsReal (gRow xr w) := by
  obtain ⟨s, hs0, hs⟩ := scale_real xr
  unfold gRow invs
  rw [hs, Ideal.div_coe hs0, lit_one]
  exact (IsReal.sum _ _ fun k => (qv_isReal xr k).mul (hw k)).mul (IsReal.one.mul (IsReal.coe _))

end Assembly

theorem rout_eq_out (x : Fin 8192 → Fin 2048 → EReal) (Pg Ng Pu Nu : Fin 4096 → Fin 2048 → EReal)
    (Pd Nd : Fin 4096 → Fin 4096 → EReal)
    (hPg : IsMask Pg) (hNg : IsMask Ng) (hPu : IsMask Pu) (hNu : IsMask Nu) (hPd : IsMask Pd) (hNd : IsMask Nd)
    (n : Fin 8192) (j : Fin 4096) :
    Cert.Glu.ROut x Pg Ng Pu Nu Pd Nd n j
      = Cert.Glu.Out x (fun h k => Pg h k - Ng h k) (fun h k => Pu h k - Nu h k) (fun h k => Pd h k - Nd h k) n j := by
  have hg : Gr x Pg Ng n = G x (fun h k => Pg h k - Ng h k) n := funext fun h => Gr_eq_G x Pg Ng hPg hNg n h
  have hu : Gr x Pu Nu n j = gRow (x n) (fun k => Pu j k - Nu j k) := Gr_eq_G x Pu Nu hPu hNu n j
  have hgr : ∀ h, IsReal (G x (fun h k => Pg h k - Ng h k) n h) := fun h =>
    gRow_isReal (x n) _ fun k => (hPg.isReal h k).sub (hNg.isReal h k)
  unfold ROut Out Pm
  rw [hg, hu, lin_sub _ (Pd j) (Nd j) hgr (hPd.isReal j) (hNd.isReal j), sigr_eq_logistic, sigr_eq_logistic]

end Cert.Glu.Algebra

end
-- ==== Proof.Bridge.lean ====
/-
  The two programs compute one function of the argument arrays: entry (n, j) of the reference's result is the
  reference's arrangement ROut of Spec.lean over the six 0/1 masks; the kernel's is the arrangement Out over the three
  differences of masks; the two arrangements agree because levels and scales are real numbers and masks are 0/1.
-/
import proofs.«105572_j21706764714142_2_alg».proof.Proof.Spec
import proofs.«105572_j21706764714142_2_alg».proof.Proof.RefRead
import proofs.«105572_j21706764714142_2_alg».proof.Proof.Algebra
import proofs.«105572_j21706764714142_2_alg».proof.Proof.KValue

set_option maxRecDepth 16384

noncomputable section

open scoped BigOperators

namespace Cert.Glu.Bridge

open Idealize.ShloMosaic Idealize.ShloMosaic.ValueIdx
open Cert.Glu.HostW Cert.Glu.KValue

/-- Index by index the reference's result is the kernel's function of the same four arrays. -/
theorem ref_eq_kernel (x0 : FVec Ideal Cert.KernelIdeal.S8192x2048 .f32) (x1 x2 : FVec Ideal Cert.KernelIdeal.S4096x2048 .f32)
    (x3 : FVec Ideal Cert.KernelIdeal.S4096x4096 .f32) :
    Cert.ReferenceIdeal.Read.val_main_v118 (F := Ideal) x0 x1 x2 x3 = KOut x0 x1 x2 x3 := by
  funext i
  obtain ⟨n, j, rfl⟩ : ∃ (n : Fin 8192) (j : Fin 4096), i = ix2 n j := ⟨i 0, i 1, eq_ix2 i⟩
  refine (Cert.Glu.RefRead.ref_at x0 x1 x2 x3 n j).trans ?_
  refine (Cert.Glu.Algebra.rout_eq_out _ _ _ _ _ _ _
    (fun h k => Cert.Glu.Algebra.uitofp_mask _) (fun h k => Cert.Glu.Algebra.uitofp_mask _)
    (fun h k => Cert.Glu.Algebra.uitofp_mask _) (fun h k => Cert.Glu.Algebra.uitofp_mask _)
    (fun h k => Cert.Glu.Algebra.uitofp_mask _) (fun h k => Cert.Glu.Algebra.uitofp_mask _) n j).trans ?_
  rfl

end Cert.Glu.Bridge

end
-- ==== Proof.lean ====
/-
  The certificate of a gated linear unit on quantised activations and ternary weights, three kernel regions against
  a plain reference.

  Each row of the input is centred, scaled by min(1/sqrt(var + eps), 1000) and quantised to integer levels
  q = min(127, max(-128, roundeven(s * xn))) with s = min(1000, max(0.001, 127 / (max |xn| + eps))). The kernel keeps q
  and 1/s, multiplies q with the difference P - N of the 0/1 masks of each quantised weight, and scales by 1/s afterwards;
  the reference de-quantises first (q / s) and subtracts the products with N from the products with P. Levels and scales
  are real numbers whatever the input holds (they are clipped against real bounds) and masks are 0/1, so the sums are
  finite sums of reals and distributivity joins the two arrangements; the logistic gate is 1 / (1 + exp(-y)) on both
  sides. The three frames are the generated ones (the reference's is its generated run with the result dropped); the
  idealisation rewrote nothing, so preserves is trivial.
-/
import proofs.«105572_j21706764714142_2_alg».proof.Defs
import proofs.«105572_j21706764714142_2_alg».proof.Proof.Gen.Kernel
import proofs.«105572_j21706764714142_2_alg».proof.Proof.Gen.Kernel.Skeleton
import proofs.«105572_j21706764714142_2_alg».proof.Proof.Gen.Kernel.Launch
import proofs.«105572_j21706764714142_2_alg».proof.Proof.Gen.Kernel.Points
import proofs.«105572_j21706764714142_2_alg».proof.Proof.Gen.Kernel.Frame
import proofs.«105572_j21706764714142_2_alg».proof.Proof.Gen.KernelIdeal
import proofs.«105572_j21706764714142_2_alg».proof.Proof.Gen.KernelIdeal.Skeleton
import proofs.«105572_j21706764714142_2_alg».proof.Proof.Gen.KernelIdeal.Launch
import proofs.«105572_j21706764714142_2_alg».proof.Proof.Gen.KernelIdeal.Points
import proofs.«105572_j21706764714142_2_alg».proof.Proof.Gen.KernelIdeal.Frame
import proofs.«105572_j21706764714142_2_alg».proof.Proof.Gen.ReferenceIdeal
import proofs.«105572_j21706764714142_2_alg».proof.Proof.Gen.Pre_finite_inputs
import proofs.«105572_j21706764714142_2_alg».proof.Proof.Gen.ReferenceIdeal.Run
import proofs.«105572_j21706764714142_2_alg».proof.Proof.Gen.ReferenceIdeal.Read
import proofs.«105572_j21706764714142_2_alg».proof.Proof.KRun
import proofs.«105572_j21706764714142_2_alg».proof.Proof.KValue
import proofs.«105572_j21706764714142_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the one function KOut of the argument arrays in their result buffers. -/
theorem algebraic : Cert.algebraic_KernelIdeal_ReferenceIdeal := by
  intro m ρ m' ρ' _ hagree
  refine ⟨fun c => Cert.Glu.KValue.KOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Glu.KValue.kernel_value m ρ c), (h c).2⟩) (Cert.Glu.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v118_eq, (hagree c).1, (hagree c).2.1, (hagree c).2.2.1, (hagree c).2.2.2]
    exact Cert.Glu.Bridge.ref_eq_kernel _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
